-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  main_v53

def fn_part2 {F : FTy → Type} [FloatOps F] (main_arg8 : FVec F S64x64 .f32) (main_arg9 : FVec F S64x64 .f32) (main_arg10 : FVec F S64 .f32) (main_arg11 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S1000000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 116
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000, .f32⟩
  | .hbm, ⟨44, _⟩ => ⟨S1000000, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000, .f32⟩
  | .hbm, ⟨54, _⟩ => ⟨S1000000, .f32⟩
  | .hbm, ⟨55, _⟩ => ⟨S_, .f32⟩
  | .hbm, ⟨56, _⟩ => ⟨S1000000, .f32⟩
  | .hbm, ⟨57, _⟩ => ⟨S_, .f32⟩
  | .hbm, ⟨58, _⟩ => ⟨S100000, .f32⟩
  | .hbm, ⟨59, _⟩ => ⟨S1000000x1, .i32⟩
  | .hbm, ⟨60, _⟩ => ⟨S100000, .f32⟩
  | .hbm, ⟨61, _⟩ => ⟨S100000x1, .f32⟩
  | .hbm, ⟨62, _⟩ => ⟨S1000000x1, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S_, .f32⟩
  | .hbm, ⟨75, _⟩ => ⟨S100000x64, .f32⟩
  | .hbm, ⟨76, _⟩ => ⟨S1000000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S1000000x1, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x64, .f32⟩
  | .hbm, ⟨90, _⟩ => ⟨S1000000x64, .f32⟩
  | .hbm, ⟨91, _⟩ => ⟨S1000000x64, .f32⟩
  | .hbm, ⟨92, _⟩ => ⟨S_, .f32⟩
  | .hbm, ⟨93, _⟩ => ⟨S100000x64, .f32⟩
  | .hbm, ⟨94, _⟩ => ⟨S1000000x1, .i32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S1000000x1, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x64, .f32⟩
  | .hbm, ⟨108, _⟩ => ⟨S1000000x64, .f32⟩
  | .hbm, ⟨109, _⟩ => ⟨S1000000x64, .f32⟩
  | .hbm, ⟨110, _⟩ => ⟨S_, .f32⟩
  | .hbm, ⟨111, _⟩ => ⟨S100000x64, .f32⟩
  | .hbm, ⟨112, _⟩ => ⟨S1000000x1, .i32⟩
  | .hbm, ⟨113, _⟩ => ⟨S100000x64, .f32⟩
  | .hbm, ⟨114, _⟩ => ⟨S1x64, .f32⟩
  | .hbm, ⟨115, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x1, .f32⟩
  | .local _ .vmem, ⟨25, _⟩ => ⟨S10000x1, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_c_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  shapeCasts_S100000_S100000x1 : S100000.ShapeCasts S100000x1
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v47) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v62) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v77) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 247
  | .vmem => 0
  | .smem => 0
  | _ => 0

abbrev hbmTy0_0 (i : Nat) : BufTy := match i % 128 with
  | 0 => ⟨S100000x64, .f32⟩
  | 1 => ⟨S2x1000000, .i32⟩
  | 2 => ⟨S1000000, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S100000, .f32⟩
  | 18 => ⟨S1000000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000, .f32⟩
  | 44 => ⟨S1000000, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000, .f32⟩
  | 54 => ⟨S1000000, .f32⟩
  | 55 => ⟨S1000000x1, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S1000000x64, .f32⟩
  | 66 => ⟨S1000000x64, .f32⟩
  | 67 => ⟨S_, .f32⟩
  | 68 => ⟨S100000x64, .f32⟩
  | 69 => ⟨S1000000x1, .i32⟩
  | 70 => ⟨S100000x64, .f32⟩
  | 71 => ⟨S_, .f32⟩
  | 72 => ⟨S1000000, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S64x64, .f32⟩
  | 84 => ⟨S100000x64, .f32⟩
  | 85 => ⟨S1x64, .f32⟩
  | 86 => ⟨S100000x64, .f32⟩
  | 87 => ⟨S100000x64, .f32⟩
  | 88 => ⟨S64x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .f32⟩
  | 95 => ⟨S100000, .f32⟩
  | 96 => ⟨S1000000x1, .i32⟩
  | 97 => ⟨S100000, .f32⟩
  | 98 => ⟨S_, .f32⟩
  | 99 => ⟨S100000, .f32⟩
  | 100 => ⟨S100000, .i1⟩
  | 101 => ⟨S_, .f32⟩
  | 102 => ⟨S100000, .f32⟩
  | 103 => ⟨S100000, .i1⟩
  | 104 => ⟨S_, .f32⟩
  | 105 => ⟨S_, .f32⟩
  | 106 => ⟨S100000, .f32⟩
  | 107 => ⟨S100000, .f32⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000, .f32⟩
  | 122 => ⟨S1000000, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x64, .f32⟩

abbrev hbmTy0_1 (i : Nat) : BufTy := match i % 128 with
  | 0 => ⟨S1000000, .i32⟩
  | 1 => ⟨S1000000, .i32⟩
  | 2 => ⟨S1000000x1, .i32⟩
  | 3 => ⟨S1000000, .f32⟩
  | 4 => ⟨S1000000, .f32⟩
  | 5 => ⟨S1000000x1, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S1000000x64, .f32⟩
  | 16 => ⟨S1000000x64, .f32⟩
  | 17 => ⟨S_, .f32⟩
  | 18 => ⟨S100000x64, .f32⟩
  | 19 => ⟨S1000000x1, .i32⟩
  | 20 => ⟨S100000x64, .f32⟩
  | 21 => ⟨S_, .f32⟩
  | 22 => ⟨S1000000, .f32⟩
  | 23 => ⟨S_, .f32⟩
  | 24 => ⟨S100000, .f32⟩
  | 25 => ⟨S1000000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x64, .f32⟩
  | 32 => ⟨S100000x64, .f32⟩
  | 33 => ⟨S64x64, .f32⟩
  | 34 => ⟨S100000x64, .f32⟩
  | 35 => ⟨S1x64, .f32⟩
  | 36 => ⟨S100000x64, .f32⟩
  | 37 => ⟨S100000x64, .f32⟩
  | 38 => ⟨S64x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S_, .f32⟩
  | 45 => ⟨S100000, .f32⟩
  | 46 => ⟨S1000000x1, .i32⟩
  | 47 => ⟨S100000, .f32⟩
  | 48 => ⟨S_, .f32⟩
  | 49 => ⟨S100000, .f32⟩
  | 50 => ⟨S100000, .i1⟩
  | 51 => ⟨S_, .f32⟩
  | 52 => ⟨S100000, .f32⟩
  | 53 => ⟨S100000, .i1⟩
  | 54 => ⟨S_, .f32⟩
  | 55 => ⟨S_, .f32⟩
  | 56 => ⟨S100000, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000, .f32⟩
  | 72 => ⟨S1000000, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000, .f32⟩
  | 82 => ⟨S1000000, .f32⟩
  | 83 => ⟨S1000000x1, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S1000000x64, .f32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S_, .f32⟩
  | 100 => ⟨S1000000, .f32⟩
  | 101 => ⟨S_, .f32⟩
  | 102 => ⟨S100000, .f32⟩
  | 103 => ⟨S1000000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x64, .f32⟩
  | 110 => ⟨S100000x64, .f32⟩
  | 111 => ⟨S64x64, .f32⟩
  | 112 => ⟨S100000x64, .f32⟩
  | 113 => ⟨S1x64, .f32⟩
  | 114 => ⟨S100000x64, .f32⟩
  | 115 => ⟨S100000x64, .f32⟩
  | 116 => ⟨S64x64, .f32⟩
  | 117 => ⟨S100000x64, .f32⟩
  | 118 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_v68 : Ref sig .tc := ⟨.hbm, 107, rfl⟩
abbrev main_v69 : Ref sig .tc := ⟨.hbm, 108, rfl⟩
abbrev main_cst_17 : Ref sig .tc := ⟨.hbm, 109, rfl⟩
abbrev main_call4_v0 : Ref sig .tc := ⟨.hbm, 110, rfl⟩
abbrev main_call4_v1 : Ref sig .tc := ⟨.hbm, 111, rfl⟩
abbrev main_v70 : Ref sig .tc := ⟨.hbm, 112, rfl⟩
abbrev main_c_18 : Ref sig .tc := ⟨.hbm, 113, rfl⟩
abbrev main_v71 : Ref sig .tc := ⟨.hbm, 114, rfl⟩
abbrev main_v72 : Ref sig .tc := ⟨.hbm, 115, rfl⟩
abbrev main_c_19 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_20 : Ref sig .tc := ⟨.hbm, 123, rfl⟩
abbrev main_v79 : Ref sig .tc := ⟨.hbm, 124, rfl⟩
abbrev main_v80 : Ref sig .tc := ⟨.hbm, 125, rfl⟩
abbrev main_c_21 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_c_23 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_24 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_25 : Ref sig .tc := ⟨.hbm, 149, rfl⟩
abbrev main_v100 : Ref sig .tc := ⟨.hbm, 150, rfl⟩
abbrev main_cst_26 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_27 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_call5_cst : Ref sig .tc := ⟨.hbm, 169, rfl⟩
abbrev main_call5_v0 : Ref sig .tc := ⟨.hbm, 170, rfl⟩
abbrev main_v117 : Ref sig .tc := ⟨.hbm, 171, rfl⟩
abbrev main_cst_28 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_29 : Ref sig .tc := ⟨.hbm, 176, rfl⟩
abbrev main_v121 : Ref sig .tc := ⟨.hbm, 177, rfl⟩
abbrev main_v122 : Ref sig .tc := ⟨.hbm, 178, rfl⟩
abbrev main_cst_30 : Ref sig .tc := ⟨.hbm, 179, rfl⟩
abbrev main_v123 : Ref sig .tc := ⟨.hbm, 180, rfl⟩
abbrev main_v124 : Ref sig .tc := ⟨.hbm, 181, rfl⟩
abbrev main_cst_31 : Ref sig .tc := ⟨.hbm, 182, rfl⟩
abbrev main_call6_v0 : Ref sig .tc := ⟨.hbm, 183, rfl⟩
abbrev main_call6_v1 : Ref sig .tc := ⟨.hbm, 184, rfl⟩
abbrev main_v125 : Ref sig .tc := ⟨.hbm, 185, rfl⟩
abbrev main_v126 : Ref sig .tc := ⟨.hbm, 186, rfl⟩
abbrev main_cst_32 : Ref sig .tc := ⟨.hbm, 187, rfl⟩
abbrev main_call7_v0 : Ref sig .tc := ⟨.hbm, 188, rfl⟩
abbrev main_call7_v1 : Ref sig .tc := ⟨.hbm, 189, rfl⟩
abbrev main_v127 : Ref sig .tc := ⟨.hbm, 190, rfl⟩
abbrev main_c_33 : Ref sig .tc := ⟨.hbm, 191, rfl⟩
abbrev main_v128 : Ref sig .tc := ⟨.hbm, 192, rfl⟩
abbrev main_v129 : Ref sig .tc := ⟨.hbm, 193, rfl⟩
abbrev main_c_34 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_c_35 : Ref sig .tc := ⟨.hbm, 201, rfl⟩
abbrev main_v136 : Ref sig .tc := ⟨.hbm, 202, rfl⟩
abbrev main_v137 : Ref sig .tc := ⟨.hbm, 203, rfl⟩
abbrev main_c_36 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_c_37 : Ref sig .tc := ⟨.hbm, 212, rfl⟩
abbrev main_v145 : Ref sig .tc := ⟨.hbm, 213, rfl⟩
abbrev main_v146 : Ref sig .tc := ⟨.hbm, 214, rfl⟩
abbrev main_c_38 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_39 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_40 : Ref sig .tc := ⟨.hbm, 227, rfl⟩
abbrev main_v157 : Ref sig .tc := ⟨.hbm, 228, rfl⟩
abbrev main_cst_41 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_42 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run, with the RESULT named.

  The program is a chain of host stretches and three kernel regions. Along it the contents of every buffer that outlives a
  region are known at each boundary: after a host stretch, the stretch's operations applied to the contents before it; after
  a region, the region's arrays at what its write-backs leave and everything else untouched. Every weakly fair execution
  terminates with each such buffer at the LAST boundary's contents. In particular the result buffer ends at what the third
  region wrote, and every argument ends as launched.
-/
import proofs.«150917_j82136954568750_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipelines' ghost state starts from: every staging cell and every launch token of the three pipelines. -/
abbrev ghost₀ := initOf (Pipeline.cells cfgs cellOf_inj) (Pipeline.launchToks cfgs cellOf_inj)

/-- At launch the ghost state is handed over as it is; beside it no core needs anything of its own. -/
theorem launch_ghost : (ownU ghost₀ : sProp 𝕄) ⊢ |={Set.univ}=> iprop(BI.own (emb₁ ghost₀) ∗ bigSep Finset.univ fun _ : Dev nD => (BI.emp : sProp 𝕄)) := by
  rw [BI.bigSep_emp_const]
  have handed : (ownU ghost₀ : sProp 𝕄) ⊢ BI.own (emb₁ ghost₀) := .rfl
  iintro H
  imodintro
  isplitl [H]
  · iapply handed
    iexact H
  · iempintro

/-- At launch a core holds every buffer that outlives the regions at its launch contents, its generator register, and owes
    nothing: the state the first host stretch is entered from. -/
theorem launch_state (c : Dev nD) :
    iprop(iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) ∗ levAts L lv)
      ⊢ |={Set.univ}=> iprop(StableHlo.held (c : Thread nD τ) (Pipeline.ucRefs τ sig) (W0 m ρ c) ∗ R c) := by
  have e : (unscopedBufs c (fun b => m ((c : Thread nD τ).loc b)) : sProp 𝕄) = StableHlo.held (c : Thread nD τ) (Pipeline.ucRefs τ sig) (W0 m ρ c) :=
    Pipeline.unscopedBufs_held c (W0 m ρ c)
  rw [e]
  iintro ⟨⟨Hbufs, -, Howes, -, Hreg, -⟩, -⟩
  imodintro
  isplitl [Hbufs]
  · iexact Hbufs
  isplitl [Hreg]
  · iexists _
    iexact Hreg
  · iexists ∅
    iexact Howes

/-- At the end a core still holds every such buffer, now at the last boundary's contents: the final memory agrees with them. -/
theorem final_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W10 m ρ c b⌝ ∗ SI s') := by
  iintro ⟨⟨Hbufs, -⟩, Hst⟩
  imodintro
  iapply (pointsTo_read_all (Pipeline.ucRefs τ sig) (fun b => (((c : Thread nD τ)).1, b)) (W10 m ρ c) s')
  isplitl [Hbufs]
  · unfold StableHlo.held
    iexact Hbufs
  · iexact Hst

set_option backward.isDefEq.respectTransparency.types false in
/-- Every weakly fair execution terminates, nothing faulting, with every buffer that outlives the regions at the last
    boundary's contents: the ten segments of the program chained from the launch state to the last one. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp)) (u₀ := ghost₀)
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := Pipeline.initEach L lv fun c => launch_state m ρ c)
    (QY := fun c s => ∀ b ∈ Pipeline.ucRefs τ sig, s.mem (((c : Thread nD τ)).1, b) = W10 m ρ c b)
    (hfin := fun c s' => final_read m ρ c s')
    (hQ := fun s h => h)

/-- The same run read at the result buffer and at the twelve arguments: the result is the third region's output array as
    its write-backs leave it; the arguments are as launched. -/
theorem run_result : θ_run defs (onTc (τ := τ) (main (F := F))) ⟨m, fun _ => 0, ρ⟩ (fun r => ∀ c : Dev nD,
      r.2.mem ((c.tc : Thread nD τ).loc main_v79) = (dat2 (V9 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨(h c _ (mem_uc main_v79 (by decide))).trans (W10_arr m ρ c 6),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)
    (run_boundary m ρ)

end Cert.KernelIdeal.Bridge

end
-- ==== Proof.Combine.lean ====
/-
  One graph-convolution layer's dense half, as ONE function of its six arrays, index by index, on the extended reals.

  For a node r and an output feature q:
      combine relu agg cnt h Wl bl Wr (r, q)
        = post ( (Σ_k  agg[r,k] / max(cnt[r,0], 1) · Wl[q,k])  +  bl[0,q]  +  Σ_k  h[r,k] · Wr[q,k] )
  where post is max(·, 0) when relu holds and the identity otherwise. agg is the edge-weighted sum of the
  neighbours' rows, cnt the number of incoming edges of each node (a column), h the layer's input rows, Wl and Wr the
  two weight matrices (each used transposed: the sum runs over the SECOND index of W) and bl the bias as a row.
  The grouping of the three summands, (a + b) + c, is the one both programs use; no law of the extended reals beyond
  rewriting equal terms is needed, so finiteness of the inputs is never used.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace GraphLayer

open Idealize.ShloMosaic Idealize.ShloMosaic.ValueIdx

/-- The word of the float 1.0 and of the float 0.0, read on the extended reals (never evaluated: the same words stand on
    both sides). -/
abbrev one32 : EReal := Ideal.ofBits .f32 0x3F800000#32
abbrev zero32 : EReal := Ideal.ofBits .f32 0x00000000#32

/-- The activation applied last: a rectifier, or nothing. -/
def post : Bool → EReal → EReal
  | true, s => max s zero32
  | false, s => s

theorem post_true (s : EReal) : post true s = max s zero32 := rfl
theorem post_false (s : EReal) : post false s = s := rfl

/-- A node's normalised aggregate against one output feature's row of Wl, plus the bias, plus the node's own row against
    Wr: the layer's value at (r, q) for ANY number of nodes n (the kernel sees 10000 of them at a time, the reference all
    100000). -/
def cell {n : Nat} (relu : Bool) (agg : (⟨2, ![n, 64]⟩ : Shape).Idx → EReal) (cnt : (⟨2, ![n, 1]⟩ : Shape).Idx → EReal)
    (h : (⟨2, ![n, 64]⟩ : Shape).Idx → EReal) (wl : (⟨2, ![64, 64]⟩ : Shape).Idx → EReal)
    (bl : (⟨2, ![1, 64]⟩ : Shape).Idx → EReal) (wr : (⟨2, ![64, 64]⟩ : Shape).Idx → EReal) (r : Fin n) (q : Fin 64) : EReal :=
  post relu ((∑ k : Fin 64, Ideal.div (agg (ix2 r k)) (max (cnt (ix2 r (0 : Fin 1))) one32) * wl (ix2 q k))
    + bl (ix2 (0 : Fin 1) q) + ∑ k : Fin 64, h (ix2 r k) * wr (ix2 q k))

/-- The whole layer over 100000 nodes, as an array. -/
def combine (relu : Bool) (agg : (⟨2, ![100000, 64]⟩ : Shape).Idx → EReal) (cnt : (⟨2, ![100000, 1]⟩ : Shape).Idx → EReal)
    (h : (⟨2, ![100000, 64]⟩ : Shape).Idx → EReal) (wl : (⟨2, ![64, 64]⟩ : Shape).Idx → EReal)
    (bl : (⟨2, ![1, 64]⟩ : Shape).Idx → EReal) (wr : (⟨2, ![64, 64]⟩ : Shape).Idx → EReal) :
    (⟨2, ![100000, 64]⟩ : Shape).Idx → EReal :=
  fun i => cell relu agg cnt h wl bl wr (i 0) (i 1)

/-- The value at (r, q) depends only on row r of agg and h, on the count of r, on row q of the two weight matrices and on
    entry q of the bias: two sets of arrays (of possibly different heights) that agree there give the same value. -/
theorem cell_congr {n n' : Nat} (relu : Bool)
    {agg : (⟨2, ![n, 64]⟩ : Shape).Idx → EReal} {cnt : (⟨2, ![n, 1]⟩ : Shape).Idx → EReal} {h : (⟨2, ![n, 64]⟩ : Shape).Idx → EReal}
    {wl : (⟨2, ![64, 64]⟩ : Shape).Idx → EReal} {bl : (⟨2, ![1, 64]⟩ : Shape).Idx → EReal} {wr : (⟨2, ![64, 64]⟩ : Shape).Idx → EReal}
    {agg' : (⟨2, ![n', 64]⟩ : Shape).Idx → EReal} {cnt' : (⟨2, ![n', 1]⟩ : Shape).Idx → EReal} {h' : (⟨2, ![n', 64]⟩ : Shape).Idx → EReal}
    {wl' : (⟨2, ![64, 64]⟩ : Shape).Idx → EReal} {bl' : (⟨2, ![1, 64]⟩ : Shape).Idx → EReal} {wr' : (⟨2, ![64, 64]⟩ : Shape).Idx → EReal}
    {r : Fin n} {r' : Fin n'} {q q' : Fin 64}
    (hagg : ∀ k : Fin 64, agg (ix2 r k) = agg' (ix2 r' k)) (hcnt : cnt (ix2 r (0 : Fin 1)) = cnt' (ix2 r' (0 : Fin 1)))
    (hh : ∀ k : Fin 64, h (ix2 r k) = h' (ix2 r' k)) (hwl : ∀ k : Fin 64, wl (ix2 q k) = wl' (ix2 q' k))
    (hbl : bl (ix2 (0 : Fin 1) q) = bl' (ix2 (0 : Fin 1) q')) (hwr : ∀ k : Fin 64, wr (ix2 q k) = wr' (ix2 q' k)) :
    cell relu agg cnt h wl bl wr r q = cell relu agg' cnt' h' wl' bl' wr' r' q' := by
  unfold cell
  simp only [hagg, hcnt, hh, hwl, hbl, hwr]

theorem combine_apply (relu : Bool) (agg : (⟨2, ![100000, 64]⟩ : Shape).Idx → EReal) (cnt : (⟨2, ![100000, 1]⟩ : Shape).Idx → EReal)
    (h : (⟨2, ![100000, 64]⟩ : Shape).Idx → EReal) (wl : (⟨2, ![64, 64]⟩ : Shape).Idx → EReal)
    (bl : (⟨2, ![1, 64]⟩ : Shape).Idx → EReal) (wr : (⟨2, ![64, 64]⟩ : Shape).Idx → EReal) (r : Fin 100000) (q : Fin 64) :
    combine relu agg cnt h wl bl wr (ix2 r q) = cell relu agg cnt h wl bl wr r q := rfl

/-- A vector of length n laid out as a column [n, 1] reads, at (r, u), the vector at r. -/
theorem column_apply {α : Type} {n : ℕ} (x : (⟨1, ![n]⟩ : Shape).Idx → α) (hc : (⟨1, ![n]⟩ : Shape).ShapeCasts ⟨2, ![n, 1]⟩)
    (r : Fin n) (u : Fin 1) : shapeCast ⟨2, ![n, 1]⟩ x hc (ix2 r u) = x (ix1 r) :=
  shapeCast_apply x hc _ _ (by
    have hu : u.val = 0 := by omega
    rw [Shape.rowMajor_val_two, Shape.rowMajor_val_one]
    show r.val = r.val * 1 + u.val
    rw [hu, Nat.mul_one, Nat.add_zero])

/-- A column [n, 1] repeated along 64 columns reads, at (r, k), the column at r. -/
theorem columnRepeat_apply {α : Type} {n : ℕ} (v : (⟨2, ![n, 1]⟩ : Shape).Idx → α)
    (hb : (⟨2, ![n, 1]⟩ : Shape).Broadcasts ⟨2, ![n, 64]⟩) (r : Fin n) (k : Fin 64) :
    broadcastTo ⟨2, ![n, 64]⟩ v hb (ix2 r k) = v (ix2 r (0 : Fin 1)) := by
  refine broadcastTo_apply v hb (ix2 r k) (ix2 r (0 : Fin 1)) fun ax => ?_
  match ax with
  | ⟨0, _⟩ =>
    show r.val = if n = 1 then 0 else r.val
    split
    · have := r.isLt; omega
    · rfl
  | ⟨1, _⟩ => rfl

end GraphLayer

end
-- ==== Proof.Payload.lean ====
/-
  Each of the three kernel bodies, read at one entry (p, q) of its 10000 × 64 output block.

  A body divides the block of aggregates by max(count, 1) of its row, multiplies the quotient block and the block of input
  rows by the transposes of the two 64 × 64 weight matrices (a product into a zero accumulator is the plain sum over the
  contracted index; narrowing to bf16 is the identity on the extended reals), adds the bias row between the two products,
  and (first two bodies) rectifies. At (p, q) that is `GraphLayer.cell` of the blocks.
-/
import proofs.«150917_j82136954568750_1_alg».proof.Proof.Gen.KernelIdeal.Skeleton
import proofs.«150917_j82136954568750_1_alg».proof.Proof.Combine
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bridge

open Idealize.ShloMosaic Idealize.ShloMosaic.ValueIdx Cert.KernelIdeal Cert.KernelIdeal.Gen

/-! ## The product with a transposed weight matrix, at an entry -/

/-- The left operand of the block product is read in the output's row … -/
theorem lhs_row (i : S10000x64.Idx) (κ : dot_S10000x64_S64x64_S10000x64_1_0_0_1_n_n.contr.Idx) : (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contracted index; -/
theorem lhs_contr (i : S10000x64.Idx) (κ : dot_S10000x64_S64x64_S10000x64_1_0_0_1_n_n.contr.Idx) : (dot_S10000x64_S64x64_S10000x64_1_0_0_1_n_n.lhsIdx i κ 1).val = (κ ⟨0, by decide⟩).val :=
  dot_S10000x64_S64x64_S10000x64_1_0_0_1_n_n.lhsIdx_val_of_single rfl i κ
/-- the right operand at the contracted index … -/
theorem rhs_contr (i : S10000x64.Idx) (κ : dot_S10000x64_S64x64_S10000x64_1_0_0_1_n_n.contr.Idx) : (dot_S10000x64_S64x64_S10000x64_1_0_0_1_n_n.rhsIdx i κ 0).val = (κ ⟨0, by decide⟩).val :=
  dot_S10000x64_S64x64_S10000x64_1_0_0_1_n_n.rhsIdx_val_of_single rfl i κ
/-- … in the output's column. -/
theorem rhs_col (i : S10000x64.Idx) (κ : dot_S10000x64_S64x64_S10000x64_1_0_0_1_n_n.contr.Idx) : (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block A times the TRANSPOSE of a matrix W, into the zero accumulator, at (p, q): the sum over k of A[p,k] · W[q,k]. -/
theorem mulTranspose_apply {φ₁ φ₂ : FTy} (A : FVec Ideal S10000x64 φ₁) (W : FVec Ideal S64x64 φ₂) (p : Fin 10000) (q : Fin 64) :
    matmul dot_S10000x64_S64x64_S10000x64_1_0_0_1_n_n none A (transpose S64x64 [1, 0] W transposes_S64x64_p1_0_S64x64) (constant S10000x64 .f32 0x00000000#32) (ix2 p q)
      = ∑ k : Fin 64, A (ix2 p k) * W (ix2 q k) := by
  generalize hT : transpose S64x64 [1, 0] W transposes_S64x64_p1_0_S64x64 = T
  have hTk : ∀ k : Fin 64, T (ix2 k q) = W (ix2 q k) := fun k => by
    rw [← hT]; exact transpose_ix2_apply W transposes_S64x64_p1_0_S64x64 k q
  show FloatOps.matmul dot_S10000x64_S64x64_S10000x64_1_0_0_1_n_n none A T (constant S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_contr _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_contr _ _).trans hk
    | ⟨1, _⟩ => exact rhs_col _ _)
  rw [el, er, hTk]

/-! ## The three bodies -/

/-- The normalised aggregate block at (p, k): the aggregate over max(count of row p, 1). -/
theorem normalised_apply (x0 : FVec Ideal S10000x64 .f32) (x1 : FVec Ideal S10000x1 .f32) (p : Fin 10000) (k : Fin 64) :
    divf x0 (broadcastTo S10000x64 (maximumf x1 (broadcast S10000x1 (Scalar.ofBits (F := Ideal) .f32 0x3F800000#32))) broadcasts_S10000x1_S10000x64) (ix2 p k)
      = Ideal.div (x0 (ix2 p k)) (max (x1 (ix2 p (0 : Fin 1))) GraphLayer.one32) := by
  rw [divf_apply, GraphLayer.columnRepeat_apply]
  rfl

/-- The bias row repeated down the block reads, at (p, q), the row at q. -/
theorem biasRepeat_apply (x4 : FVec Ideal S1x64 .f32) (p : Fin 10000) (q : Fin 64) :
    broadcastTo S10000x64 x4 broadcasts_S1x64_S10000x64 (ix2 p q) = x4 (ix2 (0 : Fin 1) q) :=
  broadcastTo_1b_ab_apply x4 broadcasts_S1x64_S10000x64 p q

/-- The sum before the activation, for any of the three bodies. -/
theorem presum_apply (x0 x2 : FVec Ideal S10000x64 .f32) (x1 : FVec Ideal S10000x1 .f32) (x3 x5 : FVec Ideal S64x64 .f32)
    (x4 : FVec Ideal S1x64 .f32) (p : Fin 10000) (q : Fin 64) :
    addf (addf (matmul dot_S10000x64_S64x64_S10000x64_1_0_0_1_n_n none (truncf .bf16 (divf x0 (broadcastTo S10000x64 (maximumf x1 (broadcast S10000x1 (Scalar.ofBits (F := Ideal) .f32 0x3F800000#32))) broadcasts_S10000x1_S10000x64)) bitsLt_bf16_f32)
          (transpose S64x64 [1, 0] (truncf .bf16 x3 bitsLt_bf16_f32) transposes_S64x64_p1_0_S64x64) (constant S10000x64 .f32 0x00000000#32))
        (broadcastTo S10000x64 x4 broadcasts_S1x64_S10000x64))
      (matmul dot_S10000x64_S64x64_S10000x64_1_0_0_1_n_n none (truncf .bf16 x2 bitsLt_bf16_f32)
          (transpose S64x64 [1, 0] (truncf .bf16 x5 bitsLt_bf16_f32) transposes_S64x64_p1_0_S64x64) (constant S10000x64 .f32 0x00000000#32)) (ix2 p q)
    = (∑ k : Fin 64, Ideal.div (x0 (ix2 p k)) (max (x1 (ix2 p (0 : Fin 1))) GraphLayer.one32) * x3 (ix2 q k))
        + x4 (ix2 (0 : Fin 1) q) + ∑ k : Fin 64, x2 (ix2 p k) * x5 (ix2 q k) := by
  rw [addf_apply, addf_apply, mulTranspose_apply, mulTranspose_apply, biasRepeat_apply]
  simp only [truncf_apply, normalised_apply]

/-- The first body at (p, q): the layer's cell over the six blocks, rectified. -/
theorem body0_apply (x1 : Vec Ideal S10000x1 .f32) (x0 x2 : Vec Ideal S10000x64 .f32) (x3 x5 : Vec Ideal S64x64 .f32)
    (x4 : Vec Ideal S1x64 .f32) (p : Fin 10000) (q : Fin 64) :
    k0_pay1 (F := Ideal) x1 x0 x2 x3 x5 x4 (ix2 p q) = GraphLayer.cell true x0 x1 x2 x3 x4 x5 p q := by
  unfold k0_pay1
  simp only [shapeCast_self]
  exact congrArg (fun s => max s GraphLayer.zero32) (presum_apply x0 x2 x1 x3 x5 x4 p q)

/-- The second body at (p, q): the same. -/
theorem body1_apply (x1 : Vec Ideal S10000x1 .f32) (x0 x2 : Vec Ideal S10000x64 .f32) (x3 x5 : Vec Ideal S64x64 .f32)
    (x4 : Vec Ideal S1x64 .f32) (p : Fin 10000) (q : Fin 64) :
    k1_pay1 (F := Ideal) x1 x0 x2 x3 x5 x4 (ix2 p q) = GraphLayer.cell true x0 x1 x2 x3 x4 x5 p q := by
  unfold k1_pay1
  simp only [shapeCast_self]
  exact congrArg (fun s => max s GraphLayer.zero32) (presum_apply x0 x2 x1 x3 x5 x4 p q)

/-- The third body at (p, q): the same sum, not rectified. -/
theorem body2_apply (x1 : Vec Ideal S10000x1 .f32) (x0 x2 : Vec Ideal S10000x64 .f32) (x3 x5 : Vec Ideal S64x64 .f32)
    (x4 : Vec Ideal S1x64 .f32) (p : Fin 10000) (q : Fin 64) :
    k2_pay1 (F := Ideal) x1 x0 x2 x3 x5 x4 (ix2 p q) = GraphLayer.cell false x0 x1 x2 x3 x4 x5 p q := by
  unfold k2_pay1
  simp only [shapeCast_self]
  exact presum_apply x0 x2 x1 x3 x5 x4 p q

end Cert.KernelIdeal.Bridge

end
-- ==== Proof.Region0.lean ====
/-
  Region 0 (the first layer's kernel): its output array, once all ten grid points have written back, is the layer
  function of the six arrays the region finds on entry — whatever those are.

  Grid point t handles nodes 10000·t … 10000·t + 9999: it fetches those rows of the aggregate, of the count column and of
  the layer input, the whole of the two weight matrices and of the bias row, and writes back those rows of the output. The
  block it writes back is the layer function read on those rows, because an entry (p, q) of the block depends only on row
  10000·t + p of the node arrays; and the ten blocks tile the output, the block of node r being that of point r / 10000.
-/
import proofs.«150917_j82136954568750_1_alg».proof.Proof.Gen.KernelIdeal.Frame
import proofs.«150917_j82136954568750_1_alg».proof.Proof.Payload
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin0 : (![0, 0] : Fin 2 → Nat) = fun _ => 0 := funext fun a => by fin_cases a <;> rfl

/-- The printed index maps over the ten grid points: the four node windows sit at block row t and block column 0, the two
    weight matrices and the bias at block (0, 0). -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 4000000 in
/-- What grid point t writes back is the layer function read on the point's rows. -/
theorem flushed0_eq (c : Dev nD) (t : Fin cfg0.N) :
    (dat0 V c).flushed 6 t = ((cfg0.win 6).blk t).view.read (Elt Ideal) (GraphLayer.combine true (V c main_v47) (V c main_v34) (V c main_arg0) (V c main_arg3) (V c main_v48) (V c main_arg5)) := by
  show (cfg0.win 6).cut (grid0.coords t) ((dat0 V c).after 6 t) = _
  rw [after0_6]
  unfold out0_6
  rw [View.canon_unit_zero origin0]
  simp only [View.ld_unit_zero (S := S10000x1) origin0, View.ld_unit_zero (S := S10000x64) origin0,
    View.ld_unit_zero (S := S64x64) origin0, View.ld_unit_zero (S := S1x64) origin0]
  obtain ⟨e00, e01, e10, e11, e20, e21, e30, e31, e40, e41, e50, e51, e60, e61⟩ := maps0 t
  funext j
  obtain ⟨p, q, rfl⟩ : ∃ (p : Fin 10000) (q : Fin 64), j = ix2 p q := ⟨j 0, j 1, eq_ix2 j⟩
  show k0_pay1 (iblk0 V c 1 t) (iblk0 V c 0 t) (iblk0 V c 2 t) (iblk0 V c 3 t) (iblk0 V c 5 t) (iblk0 V c 4 t) (ix2 p q)
    = GraphLayer.cell true (V c main_v47) (V c main_v34) (V c main_arg0) (V c main_arg3) (V c main_v48) (V c main_arg5)
        ((((cfg0.win 6).blk t).view.emb (ix2 p q)) 0) ((((cfg0.win 6).blk t).view.emb (ix2 p q)) 1)
  refine (body0_apply (iblk0 V c 1 t) (iblk0 V c 0 t) (iblk0 V c 2 t) (iblk0 V c 3 t) (iblk0 V c 5 t) (iblk0 V c 4 t) p q).trans ?_
  refine GraphLayer.cell_congr true (fun k => ?_) ?_ (fun k => ?_) (fun k => ?_) ?_ (fun k => ?_)
  · -- the aggregate's row
    show V c main_v47 (((cfg0.win 0).blk t).view.emb (ix2 p k)) = V c main_v47 (ix2 _ k)
    refine congrArg (V c main_v47) (funext fun a => Fin.ext ?_)
    match a with
    | ⟨0, _⟩ => show win0_0.index t (0 : Fin 2) * 10000 + 1 * p.val = win0_6.index t (0 : Fin 2) * 10000 + 1 * p.val; omega
    | ⟨1, _⟩ => show win0_0.index t (1 : Fin 2) * 64 + 1 * k.val = k.val; omega
  · -- the node's count
    show V c main_v34 (((cfg0.win 1).blk t).view.emb (ix2 p (0 : Fin 1))) = V c main_v34 (ix2 _ (0 : Fin 1))
    refine congrArg (V c main_v34) (funext fun a => Fin.ext ?_)
    match a with
    | ⟨0, _⟩ => show win0_1.index t (0 : Fin 2) * 10000 + 1 * p.val = win0_6.index t (0 : Fin 2) * 10000 + 1 * p.val; omega
    | ⟨1, _⟩ => show win0_1.index t (1 : Fin 2) * 1 + 1 * (0 : Fin 1).val = (0 : Fin 1).val; omega
  · -- the layer input's row
    show V c main_arg0 (((cfg0.win 2).blk t).view.emb (ix2 p k)) = V c main_arg0 (ix2 _ k)
    refine congrArg (V c main_arg0) (funext fun a => Fin.ext ?_)
    match a with
    | ⟨0, _⟩ => show win0_2.index t (0 : Fin 2) * 10000 + 1 * p.val = win0_6.index t (0 : Fin 2) * 10000 + 1 * p.val; omega
    | ⟨1, _⟩ => show win0_2.index t (1 : Fin 2) * 64 + 1 * k.val = k.val; omega
  · -- Wl's row q
    show V c main_arg3 (((cfg0.win 3).blk t).view.emb (ix2 q k)) = V c main_arg3 (ix2 _ k)
    refine congrArg (V c main_arg3) (funext fun a => Fin.ext ?_)
    match a with
    | ⟨0, _⟩ => show win0_3.index t (0 : Fin 2) * 64 + 1 * q.val = win0_6.index t (1 : Fin 2) * 64 + 1 * q.val; omega
    | ⟨1, _⟩ => show win0_3.index t (1 : Fin 2) * 64 + 1 * k.val = k.val; omega
  · -- the bias at q
    show V c main_v48 (((cfg0.win 4).blk t).view.emb (ix2 (0 : Fin 1) q)) = V c main_v48 (ix2 (0 : Fin 1) _)
    refine congrArg (V c main_v48) (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 64 + 1 * q.val = win0_6.index t (1 : Fin 2) * 64 + 1 * q.val; omega
  · -- Wr's row q
    show V c main_arg5 (((cfg0.win 5).blk t).view.emb (ix2 q k)) = V c main_arg5 (ix2 _ k)
    refine congrArg (V c main_arg5) (funext fun a => Fin.ext ?_)
    match a with
    | ⟨0, _⟩ => show win0_5.index t (0 : Fin 2) * 64 + 1 * q.val = win0_6.index t (1 : Fin 2) * 64 + 1 * q.val; omega
    | ⟨1, _⟩ => show win0_5.index t (1 : Fin 2) * 64 + 1 * k.val = k.val; omega

/-- An index of the output array lies in point t's block iff each coordinate lies in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v49).slice (win0_6.rect t)).set ↔ _
  rw [View.set_slice_whole, Rect.mem_set_unit]
  exact Iff.rfl

/-- The ten blocks tile the output: node r's row is in the block of point r / 10000. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hlt : (i 0).val / 10000 < cfg0.N := by show (i 0).val / 10000 < 10; omega
  obtain ⟨-, -, -, -, -, -, -, -, -, -, -, -, e60, e61⟩ := maps0 ⟨(i 0).val / 10000, hlt⟩
  have ht : (⟨(i 0).val / 10000, hlt⟩ : Fin cfg0.N).val = (i 0).val / 10000 := rfl
  refine ⟨⟨(i 0).val / 10000, hlt⟩, flush0_6 _, ?_⟩
  rw [mem_blk0]
  intro a
  match a with
  | ⟨0, _⟩ =>
    show win0_6.index ⟨(i 0).val / 10000, hlt⟩ (0 : Fin 2) * 10000 ≤ (i 0).val ∧ (i 0).val < win0_6.index ⟨(i 0).val / 10000, hlt⟩ (0 : Fin 2) * 10000 + 10000
    omega
  | ⟨1, _⟩ =>
    show win0_6.index ⟨(i 0).val / 10000, hlt⟩ (1 : Fin 2) * 64 ≤ (i 1).val ∧ (i 1).val < win0_6.index ⟨(i 0).val / 10000, hlt⟩ (1 : Fin 2) * 64 + 64
    omega

/-- The region's output array after its ten points: the layer function of the arrays it found on entry. -/
theorem final0 (c : Dev nD) : (dat0 V c).arrAt 6 cfg0.N = GraphLayer.combine true (V c main_v47) (V c main_v34) (V c main_arg0) (V c main_arg3) (V c main_v48) (V c main_arg5) :=
  (dat0 V c).arrAt_eq_of_cover 6 _ (fun t _ => flushed0_eq V c t) cover0

end Cert.KernelIdeal.Bridge

end
-- ==== Proof.Region1.lean ====
/-
  Region 1 (the second layer's kernel): its output array, once all ten grid points have written back, is the layer
  function of the six arrays the region finds on entry — whatever those are.

  Grid point t handles nodes 10000·t … 10000·t + 9999: it fetches those rows of the aggregate, of the count column and of
  the layer input, the whole of the two weight matrices and of the bias row, and writes back those rows of the output. The
  block it writes back is the layer function read on those rows, because an entry (p, q) of the block depends only on row
  10000·t + p of the node arrays; and the ten blocks tile the output, the block of node r being that of point r / 10000.
-/
import proofs.«150917_j82136954568750_1_alg».proof.Proof.Gen.KernelIdeal.Frame
import proofs.«150917_j82136954568750_1_alg».proof.Proof.Payload
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin1 : (![0, 0] : Fin 2 → Nat) = fun _ => 0 := funext fun a => by fin_cases a <;> rfl

/-- The printed index maps over the ten grid points: the four node windows sit at block row t and block column 0, the two
    weight matrices and the bias at block (0, 0). -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 4000000 in
/-- What grid point t writes back is the layer function read on the point's rows. -/
theorem flushed1_eq (c : Dev nD) (t : Fin cfg1.N) :
    (dat1 V c).flushed 6 t = ((cfg1.win 6).blk t).view.read (Elt Ideal) (GraphLayer.combine true (V c main_v62) (V c main_v34) (V c main_v49) (V c main_arg6) (V c main_v63) (V c main_arg8)) := by
  show (cfg1.win 6).cut (grid1.coords t) ((dat1 V c).after 6 t) = _
  rw [after1_6]
  unfold out1_6
  rw [View.canon_unit_zero origin1]
  simp only [View.ld_unit_zero (S := S10000x1) origin1, View.ld_unit_zero (S := S10000x64) origin1,
    View.ld_unit_zero (S := S64x64) origin1, View.ld_unit_zero (S := S1x64) origin1]
  obtain ⟨e00, e01, e10, e11, e20, e21, e30, e31, e40, e41, e50, e51, e60, e61⟩ := maps1 t
  funext j
  obtain ⟨p, q, rfl⟩ : ∃ (p : Fin 10000) (q : Fin 64), j = ix2 p q := ⟨j 0, j 1, eq_ix2 j⟩
  show k1_pay1 (iblk1 V c 1 t) (iblk1 V c 0 t) (iblk1 V c 2 t) (iblk1 V c 3 t) (iblk1 V c 5 t) (iblk1 V c 4 t) (ix2 p q)
    = GraphLayer.cell true (V c main_v62) (V c main_v34) (V c main_v49) (V c main_arg6) (V c main_v63) (V c main_arg8)
        ((((cfg1.win 6).blk t).view.emb (ix2 p q)) 0) ((((cfg1.win 6).blk t).view.emb (ix2 p q)) 1)
  refine (body1_apply (iblk1 V c 1 t) (iblk1 V c 0 t) (iblk1 V c 2 t) (iblk1 V c 3 t) (iblk1 V c 5 t) (iblk1 V c 4 t) p q).trans ?_
  refine GraphLayer.cell_congr true (fun k => ?_) ?_ (fun k => ?_) (fun k => ?_) ?_ (fun k => ?_)
  · -- the aggregate's row
    show V c main_v62 (((cfg1.win 0).blk t).view.emb (ix2 p k)) = V c main_v62 (ix2 _ k)
    refine congrArg (V c main_v62) (funext fun a => Fin.ext ?_)
    match a with
    | ⟨0, _⟩ => show win1_0.index t (0 : Fin 2) * 10000 + 1 * p.val = win1_6.index t (0 : Fin 2) * 10000 + 1 * p.val; omega
    | ⟨1, _⟩ => show win1_0.index t (1 : Fin 2) * 64 + 1 * k.val = k.val; omega
  · -- the node's count
    show V c main_v34 (((cfg1.win 1).blk t).view.emb (ix2 p (0 : Fin 1))) = V c main_v34 (ix2 _ (0 : Fin 1))
    refine congrArg (V c main_v34) (funext fun a => Fin.ext ?_)
    match a with
    | ⟨0, _⟩ => show win1_1.index t (0 : Fin 2) * 10000 + 1 * p.val = win1_6.index t (0 : Fin 2) * 10000 + 1 * p.val; omega
    | ⟨1, _⟩ => show win1_1.index t (1 : Fin 2) * 1 + 1 * (0 : Fin 1).val = (0 : Fin 1).val; omega
  · -- the layer input's row
    show V c main_v49 (((cfg1.win 2).blk t).view.emb (ix2 p k)) = V c main_v49 (ix2 _ k)
    refine congrArg (V c main_v49) (funext fun a => Fin.ext ?_)
    match a with
    | ⟨0, _⟩ => show win1_2.index t (0 : Fin 2) * 10000 + 1 * p.val = win1_6.index t (0 : Fin 2) * 10000 + 1 * p.val; omega
    | ⟨1, _⟩ => show win1_2.index t (1 : Fin 2) * 64 + 1 * k.val = k.val; omega
  · -- Wl's row q
    show V c main_arg6 (((cfg1.win 3).blk t).view.emb (ix2 q k)) = V c main_arg6 (ix2 _ k)
    refine congrArg (V c main_arg6) (funext fun a => Fin.ext ?_)
    match a with
    | ⟨0, _⟩ => show win1_3.index t (0 : Fin 2) * 64 + 1 * q.val = win1_6.index t (1 : Fin 2) * 64 + 1 * q.val; omega
    | ⟨1, _⟩ => show win1_3.index t (1 : Fin 2) * 64 + 1 * k.val = k.val; omega
  · -- the bias at q
    show V c main_v63 (((cfg1.win 4).blk t).view.emb (ix2 (0 : Fin 1) q)) = V c main_v63 (ix2 (0 : Fin 1) _)
    refine congrArg (V c main_v63) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 64 + 1 * q.val = win1_6.index t (1 : Fin 2) * 64 + 1 * q.val; omega
  · -- Wr's row q
    show V c main_arg8 (((cfg1.win 5).blk t).view.emb (ix2 q k)) = V c main_arg8 (ix2 _ k)
    refine congrArg (V c main_arg8) (funext fun a => Fin.ext ?_)
    match a with
    | ⟨0, _⟩ => show win1_5.index t (0 : Fin 2) * 64 + 1 * q.val = win1_6.index t (1 : Fin 2) * 64 + 1 * q.val; omega
    | ⟨1, _⟩ => show win1_5.index t (1 : Fin 2) * 64 + 1 * k.val = k.val; omega

/-- An index of the output array lies in point t's block iff each coordinate lies in the block's range on its axis. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v64).slice (win1_6.rect t)).set ↔ _
  rw [View.set_slice_whole, Rect.mem_set_unit]
  exact Iff.rfl

/-- The ten blocks tile the output: node r's row is in the block of point r / 10000. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 10000 < cfg1.N := by show (i 0).val / 10000 < 10; omega
  obtain ⟨-, -, -, -, -, -, -, -, -, -, -, -, e60, e61⟩ := maps1 ⟨(i 0).val / 10000, hlt⟩
  have ht : (⟨(i 0).val / 10000, hlt⟩ : Fin cfg1.N).val = (i 0).val / 10000 := rfl
  refine ⟨⟨(i 0).val / 10000, hlt⟩, flush1_6 _, ?_⟩
  rw [mem_blk1]
  intro a
  match a with
  | ⟨0, _⟩ =>
    show win1_6.index ⟨(i 0).val / 10000, hlt⟩ (0 : Fin 2) * 10000 ≤ (i 0).val ∧ (i 0).val < win1_6.index ⟨(i 0).val / 10000, hlt⟩ (0 : Fin 2) * 10000 + 10000
    omega
  | ⟨1, _⟩ =>
    show win1_6.index ⟨(i 0).val / 10000, hlt⟩ (1 : Fin 2) * 64 ≤ (i 1).val ∧ (i 1).val < win1_6.index ⟨(i 0).val / 10000, hlt⟩ (1 : Fin 2) * 64 + 64
    omega

/-- The region's output array after its ten points: the layer function of the arrays it found on entry. -/
theorem final1 (c : Dev nD) : (dat1 V c).arrAt 6 cfg1.N = GraphLayer.combine true (V c main_v62) (V c main_v34) (V c main_v49) (V c main_arg6) (V c main_v63) (V c main_arg8) :=
  (dat1 V c).arrAt_eq_of_cover 6 _ (fun t _ => flushed1_eq V c t) cover1

end Cert.KernelIdeal.Bridge

end
-- ==== Proof.Region2.lean ====
/-
  Region 2 (the third layer's kernel): its output array, once all ten grid points have written back, is the layer
  function of the six arrays the region finds on entry — whatever those are.

  Grid point t handles nodes 10000·t … 10000·t + 9999: it fetches those rows of the aggregate, of the count column and of
  the layer input, the whole of the two weight matrices and of the bias row, and writes back those rows of the output. The
  block it writes back is the layer function read on those rows, because an entry (p, q) of the block depends only on row
  10000·t + p of the node arrays; and the ten blocks tile the output, the block of node r being that of point r / 10000.
-/
import proofs.«150917_j82136954568750_1_alg».proof.Proof.Gen.KernelIdeal.Frame
import proofs.«150917_j82136954568750_1_alg».proof.Proof.Payload
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the ten grid points: the four node windows sit at block row t and block column 0, the two
    weight matrices and the bias at block (0, 0). -/
theorem maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 4000000 in
/-- What grid point t writes back is the layer function read on the point's rows. -/
theorem flushed2_eq (c : Dev nD) (t : Fin cfg2.N) :
    (dat2 V c).flushed 6 t = ((cfg2.win 6).blk t).view.read (Elt Ideal) (GraphLayer.combine false (V c main_v77) (V c main_v34) (V c main_v64) (V c main_arg9) (V c main_v78) (V c main_arg11)) := by
  show (cfg2.win 6).cut (grid2.coords t) ((dat2 V c).after 6 t) = _
  rw [after2_6]
  unfold out2_6
  rw [View.canon_unit_zero origin2]
  simp only [View.ld_unit_zero (S := S10000x1) origin2, View.ld_unit_zero (S := S10000x64) origin2,
    View.ld_unit_zero (S := S64x64) origin2, View.ld_unit_zero (S := S1x64) origin2]
  obtain ⟨e00, e01, e10, e11, e20, e21, e30, e31, e40, e41, e50, e51, e60, e61⟩ := maps2 t
  funext j
  obtain ⟨p, q, rfl⟩ : ∃ (p : Fin 10000) (q : Fin 64), j = ix2 p q := ⟨j 0, j 1, eq_ix2 j⟩
  show k2_pay1 (iblk2 V c 1 t) (iblk2 V c 0 t) (iblk2 V c 2 t) (iblk2 V c 3 t) (iblk2 V c 5 t) (iblk2 V c 4 t) (ix2 p q)
    = GraphLayer.cell false (V c main_v77) (V c main_v34) (V c main_v64) (V c main_arg9) (V c main_v78) (V c main_arg11)
        ((((cfg2.win 6).blk t).view.emb (ix2 p q)) 0) ((((cfg2.win 6).blk t).view.emb (ix2 p q)) 1)
  refine (body2_apply (iblk2 V c 1 t) (iblk2 V c 0 t) (iblk2 V c 2 t) (iblk2 V c 3 t) (iblk2 V c 5 t) (iblk2 V c 4 t) p q).trans ?_
  refine GraphLayer.cell_congr false (fun k => ?_) ?_ (fun k => ?_) (fun k => ?_) ?_ (fun k => ?_)
  · -- the aggregate's row
    show V c main_v77 (((cfg2.win 0).blk t).view.emb (ix2 p k)) = V c main_v77 (ix2 _ k)
    refine congrArg (V c main_v77) (funext fun a => Fin.ext ?_)
    match a with
    | ⟨0, _⟩ => show win2_0.index t (0 : Fin 2) * 10000 + 1 * p.val = win2_6.index t (0 : Fin 2) * 10000 + 1 * p.val; omega
    | ⟨1, _⟩ => show win2_0.index t (1 : Fin 2) * 64 + 1 * k.val = k.val; omega
  · -- the node's count
    show V c main_v34 (((cfg2.win 1).blk t).view.emb (ix2 p (0 : Fin 1))) = V c main_v34 (ix2 _ (0 : Fin 1))
    refine congrArg (V c main_v34) (funext fun a => Fin.ext ?_)
    match a with
    | ⟨0, _⟩ => show win2_1.index t (0 : Fin 2) * 10000 + 1 * p.val = win2_6.index t (0 : Fin 2) * 10000 + 1 * p.val; omega
    | ⟨1, _⟩ => show win2_1.index t (1 : Fin 2) * 1 + 1 * (0 : Fin 1).val = (0 : Fin 1).val; omega
  · -- the layer input's row
    show V c main_v64 (((cfg2.win 2).blk t).view.emb (ix2 p k)) = V c main_v64 (ix2 _ k)
    refine congrArg (V c main_v64) (funext fun a => Fin.ext ?_)
    match a with
    | ⟨0, _⟩ => show win2_2.index t (0 : Fin 2) * 10000 + 1 * p.val = win2_6.index t (0 : Fin 2) * 10000 + 1 * p.val; omega
    | ⟨1, _⟩ => show win2_2.index t (1 : Fin 2) * 64 + 1 * k.val = k.val; omega
  · -- Wl's row q
    show V c main_arg9 (((cfg2.win 3).blk t).view.emb (ix2 q k)) = V c main_arg9 (ix2 _ k)
    refine congrArg (V c main_arg9) (funext fun a => Fin.ext ?_)
    match a with
    | ⟨0, _⟩ => show win2_3.index t (0 : Fin 2) * 64 + 1 * q.val = win2_6.index t (1 : Fin 2) * 64 + 1 * q.val; omega
    | ⟨1, _⟩ => show win2_3.index t (1 : Fin 2) * 64 + 1 * k.val = k.val; omega
  · -- the bias at q
    show V c main_v78 (((cfg2.win 4).blk t).view.emb (ix2 (0 : Fin 1) q)) = V c main_v78 (ix2 (0 : Fin 1) _)
    refine congrArg (V c main_v78) (funext fun a => Fin.ext ?_)
    match a with
    | ⟨0, _⟩ => show win2_4.index t (0 : Fin 2) * 1 + 1 * (0 : Fin 1).val = (0 : Fin 1).val; omega
    | ⟨1, _⟩ => show win2_4.index t (1 : Fin 2) * 64 + 1 * q.val = win2_6.index t (1 : Fin 2) * 64 + 1 * q.val; omega
  · -- Wr's row q
    show V c main_arg11 (((cfg2.win 5).blk t).view.emb (ix2 q k)) = V c main_arg11 (ix2 _ k)
    refine congrArg (V c main_arg11) (funext fun a => Fin.ext ?_)
    match a with
    | ⟨0, _⟩ => show win2_5.index t (0 : Fin 2) * 64 + 1 * q.val = win2_6.index t (1 : Fin 2) * 64 + 1 * q.val; omega
    | ⟨1, _⟩ => show win2_5.index t (1 : Fin 2) * 64 + 1 * k.val = k.val; omega

/-- An index of the output array lies in point t's block iff each coordinate lies in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v79).slice (win2_6.rect t)).set ↔ _
  rw [View.set_slice_whole, Rect.mem_set_unit]
  exact Iff.rfl

/-- The ten blocks tile the output: node r's row is in the block of point r / 10000. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 10000 < cfg2.N := by show (i 0).val / 10000 < 10; omega
  obtain ⟨-, -, -, -, -, -, -, -, -, -, -, -, e60, e61⟩ := maps2 ⟨(i 0).val / 10000, hlt⟩
  have ht : (⟨(i 0).val / 10000, hlt⟩ : Fin cfg2.N).val = (i 0).val / 10000 := rfl
  refine ⟨⟨(i 0).val / 10000, hlt⟩, flush2_6 _, ?_⟩
  rw [mem_blk2]
  intro a
  match a with
  | ⟨0, _⟩ =>
    show win2_6.index ⟨(i 0).val / 10000, hlt⟩ (0 : Fin 2) * 10000 ≤ (i 0).val ∧ (i 0).val < win2_6.index ⟨(i 0).val / 10000, hlt⟩ (0 : Fin 2) * 10000 + 10000
    omega
  | ⟨1, _⟩ =>
    show win2_6.index ⟨(i 0).val / 10000, hlt⟩ (1 : Fin 2) * 64 ≤ (i 1).val ∧ (i 1).val < win2_6.index ⟨(i 0).val / 10000, hlt⟩ (1 : Fin 2) * 64 + 64
    omega

/-- The region's output array after its ten points: the layer function of the arrays it found on entry. -/
theorem final2 (c : Dev nD) : (dat2 V c).arrAt 6 cfg2.N = GraphLayer.combine false (V c main_v77) (V c main_v34) (V c main_v64) (V c main_arg9) (V c main_v78) (V c main_arg11) :=
  (dat2 V c).arrAt_eq_of_cover 6 _ (fun t _ => flushed2_eq V c t) cover2

end Cert.KernelIdeal.Bridge

end
-- ==== Proof.Pre0.lean ====
/-
  The first stretch of host operations of the kernel program: the two rows of the edge list (source and target node of
  every edge), the weighted in-degree of every node (the edge weights added up at the target nodes), its two positivity
  masks, and the constant 1. Operation for operation these are the reference's first stages.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- The source node of every edge. -/
theorem p0_v1 (U : Valuation τ sig (Elt Ideal)) :
    StableHlo.after (hostOps0 (F := Ideal)) U (Proc.devRef .tc main_v1) = Cert.ReferenceIdeal.Read.val_main_v1 (F := Ideal) (U (Proc.devRef .tc main_arg1)) := by
  after_results_simp
  rfl

set_option maxHeartbeats 4000000 in
/-- The target node of every edge. -/
theorem p0_v3 (U : Valuation τ sig (Elt Ideal)) :
    StableHlo.after (hostOps0 (F := Ideal)) U (Proc.devRef .tc main_v3) = Cert.ReferenceIdeal.Read.val_main_v3 (F := Ideal) (U (Proc.devRef .tc main_arg1)) := by
  after_results_simp
  rfl

set_option maxHeartbeats 4000000 in
/-- The weighted in-degree. -/
theorem p0_v6 (U : Valuation τ sig (Elt Ideal)) :
    StableHlo.after (hostOps0 (F := Ideal)) U (Proc.devRef .tc main_v6) = Cert.ReferenceIdeal.Read.val_main_v6 (F := Ideal) (U (Proc.devRef .tc main_arg1)) (U (Proc.devRef .tc main_arg2)) := by
  after_results_simp
  rfl

set_option maxHeartbeats 4000000 in
/-- Where the in-degree is positive (the mask of the outer selection). -/
theorem p0_v8 (U : Valuation τ sig (Elt Ideal)) :
    StableHlo.after (hostOps0 (F := Ideal)) U (Proc.devRef .tc main_v8) = Cert.ReferenceIdeal.Read.val_main_v8 (F := Ideal) (U (Proc.devRef .tc main_arg1)) (U (Proc.devRef .tc main_arg2)) := by
  after_results_simp
  rfl

set_option maxHeartbeats 4000000 in
/-- Where the in-degree is positive (the mask of the inner selection). -/
theorem p0_v10 (U : Valuation τ sig (Elt Ideal)) :
    StableHlo.after (hostOps0 (F := Ideal)) U (Proc.devRef .tc main_v10) = Cert.ReferenceIdeal.Read.val_main_v10 (F := Ideal) (U (Proc.devRef .tc main_arg1)) (U (Proc.devRef .tc main_arg2)) := by
  after_results_simp
  rfl

set_option maxHeartbeats 4000000 in
/-- The constant 1. -/
theorem p0_cst2 (U : Valuation τ sig (Elt Ideal)) :
    StableHlo.after (hostOps0 (F := Ideal)) U (Proc.devRef .tc main_cst_2) = Cert.ReferenceIdeal.Read.val_main_cst_2 (F := Ideal) := by
  after_results_simp
  rfl

set_option maxHeartbeats 4000000 in
theorem p0_keep_main_arg0 (U : Valuation τ sig (Elt Ideal)) :
    StableHlo.after (hostOps0 (F := Ideal)) U (Proc.devRef .tc main_arg0) = U (Proc.devRef .tc main_arg0) := by
  after_results_simp

set_option maxHeartbeats 4000000 in
theorem p0_keep_main_arg2 (U : Valuation τ sig (Elt Ideal)) :
    StableHlo.after (hostOps0 (F := Ideal)) U (Proc.devRef .tc main_arg2) = U (Proc.devRef .tc main_arg2) := by
  after_results_simp

set_option maxHeartbeats 4000000 in
theorem p0_keep_main_arg3 (U : Valuation τ sig (Elt Ideal)) :
    StableHlo.after (hostOps0 (F := Ideal)) U (Proc.devRef .tc main_arg3) = U (Proc.devRef .tc main_arg3) := by
  after_results_simp

set_option maxHeartbeats 4000000 in
theorem p0_keep_main_arg4 (U : Valuation τ sig (Elt Ideal)) :
    StableHlo.after (hostOps0 (F := Ideal)) U (Proc.devRef .tc main_arg4) = U (Proc.devRef .tc main_arg4) := by
  after_results_simp

set_option maxHeartbeats 4000000 in
theorem p0_keep_main_arg5 (U : Valuation τ sig (Elt Ideal)) :
    StableHlo.after (hostOps0 (F := Ideal)) U (Proc.devRef .tc main_arg5) = U (Proc.devRef .tc main_arg5) := by
  after_results_simp

set_option maxHeartbeats 4000000 in
theorem p0_keep_main_arg6 (U : Valuation τ sig (Elt Ideal)) :
    StableHlo.after (hostOps0 (F := Ideal)) U (Proc.devRef .tc main_arg6) = U (Proc.devRef .tc main_arg6) := by
  after_results_simp

set_option maxHeartbeats 4000000 in
theorem p0_keep_main_arg7 (U : Valuation τ sig (Elt Ideal)) :
    StableHlo.after (hostOps0 (F := Ideal)) U (Proc.devRef .tc main_arg7) = U (Proc.devRef .tc main_arg7) := by
  after_results_simp

set_option maxHeartbeats 4000000 in
theorem p0_keep_main_arg8 (U : Valuation τ sig (Elt Ideal)) :
    StableHlo.after (hostOps0 (F := Ideal)) U (Proc.devRef .tc main_arg8) = U (Proc.devRef .tc main_arg8) := by
  after_results_simp

set_option maxHeartbeats 4000000 in
theorem p0_keep_main_arg9 (U : Valuation τ sig (Elt Ideal)) :
    StableHlo.after (hostOps0 (F := Ideal)) U (Proc.devRef .tc main_arg9) = U (Proc.devRef .tc main_arg9) := by
  after_results_simp

set_option maxHeartbeats 4000000 in
theorem p0_keep_main_arg10 (U : Valuation τ sig (Elt Ideal)) :
    StableHlo.after (hostOps0 (F := Ideal)) U (Proc.devRef .tc main_arg10) = U (Proc.devRef .tc main_arg10) := by
  after_results_simp

set_option maxHeartbeats 4000000 in
theorem p0_keep_main_arg11 (U : Valuation τ sig (Elt Ideal)) :
    StableHlo.after (hostOps0 (F := Ideal)) U (Proc.devRef .tc main_arg11) = U (Proc.devRef .tc main_arg11) := by
  after_results_simp

end Cert.KernelIdeal.Bridge

end
-- ==== Proof.Pre1.lean ====
/-
  The second stretch: the in-degree where it is positive and 1 elsewhere (the argument of the reciprocal square root). The
  three operations are those of an outlined function, which reads and writes its buffers through typed references: contents
  are carried along the equation between a buffer's declared type and the type the operation works at, and carrying contents
  along such an equation does not change them.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

/-- Contents carried to a buffer's own type along the equation of the two types are the same contents. -/
theorem toBuf_eq {T : BufTy} (x : TRef sig T) (v : T.Contents (Elt Ideal)) (w : x.ref.ty.Contents (Elt Ideal)) (h : HEq v w) :
    x.toBuf v = w := eq_of_heq ((cast_heq _ _).trans h)
/-- … and back. -/
theorem ofBuf_eq {T : BufTy} (x : TRef sig T) (w : x.ref.ty.Contents (Elt Ideal)) (v : T.Contents (Elt Ideal)) (h : HEq w v) :
    x.ofBuf w = v := eq_of_heq ((cast_heq _ _).trans h)
/-- There and back. -/
theorem ofBuf_toBuf {T : BufTy} (x : TRef sig T) (v : T.Contents (Elt Ideal)) : x.ofBuf (x.toBuf v) = v :=
  eq_of_heq ((cast_heq _ _).trans (cast_heq _ _))

set_option maxHeartbeats 4000000 in
/-- The in-degree where positive, 1 elsewhere: the reference's stage, when the mask, the in-degree and the constant are. -/
theorem p1_v11 (x1 : (⟨Cert.ReferenceIdeal.S2x1000000, .i32⟩ : BufTy).Contents (Elt Ideal)) (x2 : (⟨Cert.ReferenceIdeal.S1000000, .f32⟩ : BufTy).Contents (Elt Ideal)) (U : Valuation τ sig (Elt Ideal))
    (h10 : U (Proc.devRef .tc main_v10) = Cert.ReferenceIdeal.Read.val_main_v10 (F := Ideal) x1 x2) (h6 : U (Proc.devRef .tc main_v6) = Cert.ReferenceIdeal.Read.val_main_v6 (F := Ideal) x1 x2)
    (hc : U (Proc.devRef .tc main_cst_2) = Cert.ReferenceIdeal.Read.val_main_cst_2 (F := Ideal)) :
    StableHlo.after (hostOps0_1 (F := Ideal)) U (Proc.devRef .tc main_v11) = Cert.ReferenceIdeal.Read.val_main_v11 (F := Ideal) x1 x2 := by
  after_results_simp
  refine toBuf_eq _ _ _ (heq_of_eq ?_)
  rw [ofBuf_eq _ _ _ (heq_of_eq h10), ofBuf_eq _ _ _ (heq_of_eq h6), ofBuf_toBuf, ofBuf_toBuf, ofBuf_eq _ _ _ (heq_of_eq hc)]
  rfl

set_option maxHeartbeats 4000000 in
theorem p1_keep_main_v1 (U : Valuation τ sig (Elt Ideal)) :
    StableHlo.after (hostOps0_1 (F := Ideal)) U (Proc.devRef .tc main_v1) = U (Proc.devRef .tc main_v1) := by
  after_results_simp

set_option maxHeartbeats 4000000 in
theorem p1_keep_main_v3 (U : Valuation τ sig (Elt Ideal)) :
    StableHlo.after (hostOps0_1 (F := Ideal)) U (Proc.devRef .tc main_v3) = U (Proc.devRef .tc main_v3) := by
  after_results_simp

set_option maxHeartbeats 4000000 in
theorem p1_keep_main_v8 (U : Valuation τ sig (Elt Ideal)) :
    StableHlo.after (hostOps0_1 (F := Ideal)) U (Proc.devRef .tc main_v8) = U (Proc.devRef .tc main_v8) := by
  after_results_simp

set_option maxHeartbeats 4000000 in
theorem p1_keep_main_arg0 (U : Valuation τ sig (Elt Ideal)) :
    StableHlo.after (hostOps0_1 (F := Ideal)) U (Proc.devRef .tc main_arg0) = U (Proc.devRef .tc main_arg0) := by
  after_results_simp

set_option maxHeartbeats 4000000 in
theorem p1_keep_main_arg2 (U : Valuation τ sig (Elt Ideal)) :
    StableHlo.after (hostOps0_1 (F := Ideal)) U (Proc.devRef .tc main_arg2) = U (Proc.devRef .tc main_arg2) := by
  after_results_simp

set_option maxHeartbeats 4000000 in
theorem p1_keep_main_arg3 (U : Valuation τ sig (Elt Ideal)) :
    StableHlo.after (hostOps0_1 (F := Ideal)) U (Proc.devRef .tc main_arg3) = U (Proc.devRef .tc main_arg3) := by
  after_results_simp

set_option maxHeartbeats 4000000 in
theorem p1_keep_main_arg4 (U : Valuation τ sig (Elt Ideal)) :
    StableHlo.after (hostOps0_1 (F := Ideal)) U (Proc.devRef .tc main_arg4) = U (Proc.devRef .tc main_arg4) := by
  after_results_simp

set_option maxHeartbeats 4000000 in
theorem p1_keep_main_arg5 (U : Valuation τ sig (Elt Ideal)) :
    StableHlo.after (hostOps0_1 (F := Ideal)) U (Proc.devRef .tc main_arg5) = U (Proc.devRef .tc main_arg5) := by
  after_results_simp

set_option maxHeartbeats 4000000 in
theorem p1_keep_main_arg6 (U : Valuation τ sig (Elt Ideal)) :
    StableHlo.after (hostOps0_1 (F := Ideal)) U (Proc.devRef .tc main_arg6) = U (Proc.devRef .tc main_arg6) := by
  after_results_simp

set_option maxHeartbeats 4000000 in
theorem p1_keep_main_arg7 (U : Valuation τ sig (Elt Ideal)) :
    StableHlo.after (hostOps0_1 (F := Ideal)) U (Proc.devRef .tc main_arg7) = U (Proc.devRef .tc main_arg7) := by
  after_results_simp

set_option maxHeartbeats 4000000 in
theorem p1_keep_main_arg8 (U : Valuation τ sig (Elt Ideal)) :
    StableHlo.after (hostOps0_1 (F := Ideal)) U (Proc.devRef .tc main_arg8) = U (Proc.devRef .tc main_arg8) := by
  after_results_simp

set_option maxHeartbeats 4000000 in
theorem p1_keep_main_arg9 (U : Valuation τ sig (Elt Ideal)) :
    StableHlo.after (hostOps0_1 (F := Ideal)) U (Proc.devRef .tc main_arg9) = U (Proc.devRef .tc main_arg9) := by
  after_results_simp

set_option maxHeartbeats 4000000 in
theorem p1_keep_main_arg10 (U : Valuation τ sig (Elt Ideal)) :
    StableHlo.after (hostOps0_1 (F := Ideal)) U (Proc.devRef .tc main_arg10) = U (Proc.devRef .tc main_arg10) := by
  after_results_simp

set_option maxHeartbeats 4000000 in
theorem p1_keep_main_arg11 (U : Valuation τ sig (Elt Ideal)) :
    StableHlo.after (hostOps0_1 (F := Ideal)) U (Proc.devRef .tc main_arg11) = U (Proc.devRef .tc main_arg11) := by
  after_results_simp

end Cert.KernelIdeal.Bridge

end
-- ==== Proof.Pre2.lean ====
/-
  The third stretch: the reciprocal square root of that quantity, and the constant 0.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- The reciprocal square root, when its argument is the reference's. -/
theorem p2_v12 (x1 : (⟨Cert.ReferenceIdeal.S2x1000000, .i32⟩ : BufTy).Contents (Elt Ideal)) (x2 : (⟨Cert.ReferenceIdeal.S1000000, .f32⟩ : BufTy).Contents (Elt Ideal)) (U : Valuation τ sig (Elt Ideal)) (h11 : U (Proc.devRef .tc main_v11) = Cert.ReferenceIdeal.Read.val_main_v11 (F := Ideal) x1 x2) :
    StableHlo.after (hostOps0_2 (F := Ideal)) U (Proc.devRef .tc main_v12) = Cert.ReferenceIdeal.Read.val_main_v12 (F := Ideal) x1 x2 := by
  after_results_simp
  rw [h11]
  rfl

set_option maxHeartbeats 4000000 in
/-- The constant 0. -/
theorem p2_cst3 (U : Valuation τ sig (Elt Ideal)) :
    StableHlo.after (hostOps0_2 (F := Ideal)) U (Proc.devRef .tc main_cst_3) = Cert.ReferenceIdeal.Read.val_main_cst_3 (F := Ideal) := by
  after_results_simp
  rfl

set_option maxHeartbeats 4000000 in
theorem p2_keep_main_v1 (U : Valuation τ sig (Elt Ideal)) :
    StableHlo.after (hostOps0_2 (F := Ideal)) U (Proc.devRef .tc main_v1) = U (Proc.devRef .tc main_v1) := by
  after_results_simp

set_option maxHeartbeats 4000000 in
theorem p2_keep_main_v3 (U : Valuation τ sig (Elt Ideal)) :
    StableHlo.after (hostOps0_2 (F := Ideal)) U (Proc.devRef .tc main_v3) = U (Proc.devRef .tc main_v3) := by
  after_results_simp

set_option maxHeartbeats 4000000 in
theorem p2_keep_main_v8 (U : Valuation τ sig (Elt Ideal)) :
    StableHlo.after (hostOps0_2 (F := Ideal)) U (Proc.devRef .tc main_v8) = U (Proc.devRef .tc main_v8) := by
  after_results_simp

set_option maxHeartbeats 4000000 in
theorem p2_keep_main_arg0 (U : Valuation τ sig (Elt Ideal)) :
    StableHlo.after (hostOps0_2 (F := Ideal)) U (Proc.devRef .tc main_arg0) = U (Proc.devRef .tc main_arg0) := by
  after_results_simp

set_option maxHeartbeats 4000000 in
theorem p2_keep_main_arg2 (U : Valuation τ sig (Elt Ideal)) :
    StableHlo.after (hostOps0_2 (F := Ideal)) U (Proc.devRef .tc main_arg2) = U (Proc.devRef .tc main_arg2) := by
  after_results_simp

set_option maxHeartbeats 4000000 in
theorem p2_keep_main_arg3 (U : Valuation τ sig (Elt Ideal)) :
    StableHlo.after (hostOps0_2 (F := Ideal)) U (Proc.devRef .tc main_arg3) = U (Proc.devRef .tc main_arg3) := by
  after_results_simp

set_option maxHeartbeats 4000000 in
theorem p2_keep_main_arg4 (U : Valuation τ sig (Elt Ideal)) :
    StableHlo.after (hostOps0_2 (F := Ideal)) U (Proc.devRef .tc main_arg4) = U (Proc.devRef .tc main_arg4) := by
  after_results_simp

set_option maxHeartbeats 4000000 in
theorem p2_keep_main_arg5 (U : Valuation τ sig (Elt Ideal)) :
    StableHlo.after (hostOps0_2 (F := Ideal)) U (Proc.devRef .tc main_arg5) = U (Proc.devRef .tc main_arg5) := by
  after_results_simp

set_option maxHeartbeats 4000000 in
theorem p2_keep_main_arg6 (U : Valuation τ sig (Elt Ideal)) :
    StableHlo.after (hostOps0_2 (F := Ideal)) U (Proc.devRef .tc main_arg6) = U (Proc.devRef .tc main_arg6) := by
  after_results_simp

set_option maxHeartbeats 4000000 in
theorem p2_keep_main_arg7 (U : Valuation τ sig (Elt Ideal)) :
    StableHlo.after (hostOps0_2 (F := Ideal)) U (Proc.devRef .tc main_arg7) = U (Proc.devRef .tc main_arg7) := by
  after_results_simp

set_option maxHeartbeats 4000000 in
theorem p2_keep_main_arg8 (U : Valuation τ sig (Elt Ideal)) :
    StableHlo.after (hostOps0_2 (F := Ideal)) U (Proc.devRef .tc main_arg8) = U (Proc.devRef .tc main_arg8) := by
  after_results_simp

set_option maxHeartbeats 4000000 in
theorem p2_keep_main_arg9 (U : Valuation τ sig (Elt Ideal)) :
    StableHlo.after (hostOps0_2 (F := Ideal)) U (Proc.devRef .tc main_arg9) = U (Proc.devRef .tc main_arg9) := by
  after_results_simp

set_option maxHeartbeats 4000000 in
theorem p2_keep_main_arg10 (U : Valuation τ sig (Elt Ideal)) :
    StableHlo.after (hostOps0_2 (F := Ideal)) U (Proc.devRef .tc main_arg10) = U (Proc.devRef .tc main_arg10) := by
  after_results_simp

set_option maxHeartbeats 4000000 in
theorem p2_keep_main_arg11 (U : Valuation τ sig (Elt Ideal)) :
    StableHlo.after (hostOps0_2 (F := Ideal)) U (Proc.devRef .tc main_arg11) = U (Proc.devRef .tc main_arg11) := by
  after_results_simp

end Cert.KernelIdeal.Bridge

end
-- ==== Proof.Pre3.lean ====
/-
  The fourth stretch: dis, the reciprocal square root of the in-degree where it is positive and 0 elsewhere — again the three
  operations of the outlined selection, through typed references.
-/
import proofs.«150917_j82136954568750_1_alg».proof.Proof.Gen.KernelIdeal.Launch
import proofs.«150917_j82136954568750_1_alg».proof.Proof.Gen.ReferenceIdeal.Read
import proofs.«150917_j82136954568750_1_alg».proof.Proof.Pre1
set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- dis is the reference's, when the mask, the reciprocal square root and the constant are. -/
theorem p3_v13 (x1 : (⟨Cert.ReferenceIdeal.S2x1000000, .i32⟩ : BufTy).Contents (Elt Ideal)) (x2 : (⟨Cert.ReferenceIdeal.S1000000, .f32⟩ : BufTy).Contents (Elt Ideal)) (U : Valuation τ sig (Elt Ideal))
    (h8 : U (Proc.devRef .tc main_v8) = Cert.ReferenceIdeal.Read.val_main_v8 (F := Ideal) x1 x2) (h12 : U (Proc.devRef .tc main_v12) = Cert.ReferenceIdeal.Read.val_main_v12 (F := Ideal) x1 x2)
    (hc : U (Proc.devRef .tc main_cst_3) = Cert.ReferenceIdeal.Read.val_main_cst_3 (F := Ideal)) :
    StableHlo.after (hostOps0_3 (F := Ideal)) U (Proc.devRef .tc main_v13) = Cert.ReferenceIdeal.Read.val_main_v13 (F := Ideal) x1 x2 := by
  after_results_simp
  refine toBuf_eq _ _ _ (heq_of_eq ?_)
  rw [ofBuf_eq _ _ _ (heq_of_eq h8), ofBuf_eq _ _ _ (heq_of_eq h12), ofBuf_toBuf, ofBuf_toBuf, ofBuf_eq _ _ _ (heq_of_eq hc)]
  rfl

set_option maxHeartbeats 4000000 in
theorem p3_keep_main_v1 (U : Valuation τ sig (Elt Ideal)) :
    StableHlo.after (hostOps0_3 (F := Ideal)) U (Proc.devRef .tc main_v1) = U (Proc.devRef .tc main_v1) := by
  after_results_simp

set_option maxHeartbeats 4000000 in
theorem p3_keep_main_v3 (U : Valuation τ sig (Elt Ideal)) :
    StableHlo.after (hostOps0_3 (F := Ideal)) U (Proc.devRef .tc main_v3) = U (Proc.devRef .tc main_v3) := by
  after_results_simp

set_option maxHeartbeats 4000000 in
theorem p3_keep_main_arg0 (U : Valuation τ sig (Elt Ideal)) :
    StableHlo.after (hostOps0_3 (F := Ideal)) U (Proc.devRef .tc main_arg0) = U (Proc.devRef .tc main_arg0) := by
  after_results_simp

set_option maxHeartbeats 4000000 in
theorem p3_keep_main_arg2 (U : Valuation τ sig (Elt Ideal)) :
    StableHlo.after (hostOps0_3 (F := Ideal)) U (Proc.devRef .tc main_arg2) = U (Proc.devRef .tc main_arg2) := by
  after_results_simp

set_option maxHeartbeats 4000000 in
theorem p3_keep_main_arg3 (U : Valuation τ sig (Elt Ideal)) :
    StableHlo.after (hostOps0_3 (F := Ideal)) U (Proc.devRef .tc main_arg3) = U (Proc.devRef .tc main_arg3) := by
  after_results_simp

set_option maxHeartbeats 4000000 in
theorem p3_keep_main_arg4 (U : Valuation τ sig (Elt Ideal)) :
    StableHlo.after (hostOps0_3 (F := Ideal)) U (Proc.devRef .tc main_arg4) = U (Proc.devRef .tc main_arg4) := by
  after_results_simp

set_option maxHeartbeats 4000000 in
theorem p3_keep_main_arg5 (U : Valuation τ sig (Elt Ideal)) :
    StableHlo.after (hostOps0_3 (F := Ideal)) U (Proc.devRef .tc main_arg5) = U (Proc.devRef .tc main_arg5) := by
  after_results_simp

set_option maxHeartbeats 4000000 in
theorem p3_keep_main_arg6 (U : Valuation τ sig (Elt Ideal)) :
    StableHlo.after (hostOps0_3 (F := Ideal)) U (Proc.devRef .tc main_arg6) = U (Proc.devRef .tc main_arg6) := by
  after_results_simp

set_option maxHeartbeats 4000000 in
theorem p3_keep_main_arg7 (U : Valuation τ sig (Elt Ideal)) :
    StableHlo.after (hostOps0_3 (F := Ideal)) U (Proc.devRef .tc main_arg7) = U (Proc.devRef .tc main_arg7) := by
  after_results_simp

set_option maxHeartbeats 4000000 in
theorem p3_keep_main_arg8 (U : Valuation τ sig (Elt Ideal)) :
    StableHlo.after (hostOps0_3 (F := Ideal)) U (Proc.devRef .tc main_arg8) = U (Proc.devRef .tc main_arg8) := by
  after_results_simp

set_option maxHeartbeats 4000000 in
theorem p3_keep_main_arg9 (U : Valuation τ sig (Elt Ideal)) :
    StableHlo.after (hostOps0_3 (F := Ideal)) U (Proc.devRef .tc main_arg9) = U (Proc.devRef .tc main_arg9) := by
  after_results_simp

set_option maxHeartbeats 4000000 in
theorem p3_keep_main_arg10 (U : Valuation τ sig (Elt Ideal)) :
    StableHlo.after (hostOps0_3 (F := Ideal)) U (Proc.devRef .tc main_arg10) = U (Proc.devRef .tc main_arg10) := by
  after_results_simp

set_option maxHeartbeats 4000000 in
theorem p3_keep_main_arg11 (U : Valuation τ sig (Elt Ideal)) :
    StableHlo.after (hostOps0_3 (F := Ideal)) U (Proc.devRef .tc main_arg11) = U (Proc.devRef .tc main_arg11) := by
  after_results_simp

end Cert.KernelIdeal.Bridge

end
-- ==== Proof.Pre4.lean ====
/-
  The last stretch before the first region: the normalised edge weights w = dis[row] · weight · dis[col]; the number of
  incoming edges of every node, as a column; the first layer's aggregate (for every node, the sum over its incoming edges of
  w times the source node's row); and the first bias as a row — the reference's stages, given the edge list, dis and the
  arguments.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- The normalised edge weights. -/
theorem p4_w (x1 : (⟨Cert.ReferenceIdeal.S2x1000000, .i32⟩ : BufTy).Contents (Elt Ideal)) (x2 : (⟨Cert.ReferenceIdeal.S1000000, .f32⟩ : BufTy).Contents (Elt Ideal)) (U : Valuation τ sig (Elt Ideal))
    (h1 : U (Proc.devRef .tc main_v1) = Cert.ReferenceIdeal.Read.val_main_v1 (F := Ideal) x1) (h3 : U (Proc.devRef .tc main_v3) = Cert.ReferenceIdeal.Read.val_main_v3 (F := Ideal) x1)
    (h13 : U (Proc.devRef .tc main_v13) = Cert.ReferenceIdeal.Read.val_main_v13 (F := Ideal) x1 x2) (ha2 : U (Proc.devRef .tc main_arg2) = x2) :
    StableHlo.after (hostOps0_4 (F := Ideal)) U (Proc.devRef .tc main_v29) = Cert.ReferenceIdeal.Read.val_main_v29 (F := Ideal) x1 x2 := by
  after_results_simp
  rw [h1, h3, h13, ha2]
  rfl

set_option maxHeartbeats 4000000 in
/-- The number of incoming edges of every node, laid out as a column. -/
theorem p4_cnt (x1 : (⟨Cert.ReferenceIdeal.S2x1000000, .i32⟩ : BufTy).Contents (Elt Ideal)) (U : Valuation τ sig (Elt Ideal)) (h3 : U (Proc.devRef .tc main_v3) = Cert.ReferenceIdeal.Read.val_main_v3 (F := Ideal) x1) :
    StableHlo.after (hostOps0_4 (F := Ideal)) U (Proc.devRef .tc main_v34) = shapeCast S100000x1 (Cert.ReferenceIdeal.Read.val_main_v46 (F := Ideal) x1) shapeCasts_S100000_S100000x1 := by
  after_results_simp
  rw [h3]
  rfl

set_option maxHeartbeats 4000000 in
/-- The first layer's aggregate. -/
theorem p4_agg (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S1000000, .f32⟩ : BufTy).Contents (Elt Ideal)) (U : Valuation τ sig (Elt Ideal))
    (h1 : U (Proc.devRef .tc main_v1) = Cert.ReferenceIdeal.Read.val_main_v1 (F := Ideal) x1) (h3 : U (Proc.devRef .tc main_v3) = Cert.ReferenceIdeal.Read.val_main_v3 (F := Ideal) x1)
    (h13 : U (Proc.devRef .tc main_v13) = Cert.ReferenceIdeal.Read.val_main_v13 (F := Ideal) x1 x2) (ha0 : U (Proc.devRef .tc main_arg0) = x0) (ha2 : U (Proc.devRef .tc main_arg2) = x2) :
    StableHlo.after (hostOps0_4 (F := Ideal)) U (Proc.devRef .tc main_v47) = Cert.ReferenceIdeal.Read.val_main_v42 (F := Ideal) x0 x1 x2 := by
  after_results_simp
  rw [h1, h3, h13, ha0, ha2]
  rfl

set_option maxHeartbeats 4000000 in
/-- The first layer's bias, laid out as a row. -/
theorem p4_bl (U : Valuation τ sig (Elt Ideal)) :
    StableHlo.after (hostOps0_4 (F := Ideal)) U (Proc.devRef .tc main_v48) = shapeCast S1x64 (U (Proc.devRef .tc main_arg4)) shapeCasts_S64_S1x64 := by
  after_results_simp
  rfl

set_option maxHeartbeats 4000000 in
theorem p4_keep_main_v1 (U : Valuation τ sig (Elt Ideal)) :
    StableHlo.after (hostOps0_4 (F := Ideal)) U (Proc.devRef .tc main_v1) = U (Proc.devRef .tc main_v1) := by
  after_results_simp

set_option maxHeartbeats 4000000 in
theorem p4_keep_main_v3 (U : Valuation τ sig (Elt Ideal)) :
    StableHlo.after (hostOps0_4 (F := Ideal)) U (Proc.devRef .tc main_v3) = U (Proc.devRef .tc main_v3) := by
  after_results_simp

set_option maxHeartbeats 4000000 in
theorem p4_keep_main_arg0 (U : Valuation τ sig (Elt Ideal)) :
    StableHlo.after (hostOps0_4 (F := Ideal)) U (Proc.devRef .tc main_arg0) = U (Proc.devRef .tc main_arg0) := by
  after_results_simp

set_option maxHeartbeats 4000000 in
theorem p4_keep_main_arg3 (U : Valuation τ sig (Elt Ideal)) :
    StableHlo.after (hostOps0_4 (F := Ideal)) U (Proc.devRef .tc main_arg3) = U (Proc.devRef .tc main_arg3) := by
  after_results_simp

set_option maxHeartbeats 4000000 in
theorem p4_keep_main_arg5 (U : Valuation τ sig (Elt Ideal)) :
    StableHlo.after (hostOps0_4 (F := Ideal)) U (Proc.devRef .tc main_arg5) = U (Proc.devRef .tc main_arg5) := by
  after_results_simp

set_option maxHeartbeats 4000000 in
theorem p4_keep_main_arg6 (U : Valuation τ sig (Elt Ideal)) :
    StableHlo.after (hostOps0_4 (F := Ideal)) U (Proc.devRef .tc main_arg6) = U (Proc.devRef .tc main_arg6) := by
  after_results_simp

set_option maxHeartbeats 4000000 in
theorem p4_keep_main_arg7 (U : Valuation τ sig (Elt Ideal)) :
    StableHlo.after (hostOps0_4 (F := Ideal)) U (Proc.devRef .tc main_arg7) = U (Proc.devRef .tc main_arg7) := by
  after_results_simp

set_option maxHeartbeats 4000000 in
theorem p4_keep_main_arg8 (U : Valuation τ sig (Elt Ideal)) :
    StableHlo.after (hostOps0_4 (F := Ideal)) U (Proc.devRef .tc main_arg8) = U (Proc.devRef .tc main_arg8) := by
  after_results_simp

set_option maxHeartbeats 4000000 in
theorem p4_keep_main_arg9 (U : Valuation τ sig (Elt Ideal)) :
    StableHlo.after (hostOps0_4 (F := Ideal)) U (Proc.devRef .tc main_arg9) = U (Proc.devRef .tc main_arg9) := by
  after_results_simp

set_option maxHeartbeats 4000000 in
theorem p4_keep_main_arg10 (U : Valuation τ sig (Elt Ideal)) :
    StableHlo.after (hostOps0_4 (F := Ideal)) U (Proc.devRef .tc main_arg10) = U (Proc.devRef .tc main_arg10) := by
  after_results_simp

set_option maxHeartbeats 4000000 in
theorem p4_keep_main_arg11 (U : Valuation τ sig (Elt Ideal)) :
    StableHlo.after (hostOps0_4 (F := Ideal)) U (Proc.devRef .tc main_arg11) = U (Proc.devRef .tc main_arg11) := by
  after_results_simp

end Cert.KernelIdeal.Bridge

end
-- ==== Proof.Host1.lean ====
/-
  The host operations between region 0 and region 1 of the kernel program: layer 2's aggregate and bias row.

  They gather the previous layer's output rows at the edges' source nodes, scale each by the edge's normalised weight and add
  them up at the target nodes — the reference's own operations for this layer, given that the edge quantities and the
  previous layer's output are the reference's. Nothing else that a later region reads is written.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- Layer 2's aggregate is the reference's, when the edge list, the edge weights and the previous layer's output are. -/
theorem mid2_agg (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S1000000, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (U : Valuation τ sig (Elt Ideal))
    (h1 : U (Proc.devRef .tc main_v1) = Cert.ReferenceIdeal.Read.val_main_v1 (F := Ideal) x1) (h3 : U (Proc.devRef .tc main_v3) = Cert.ReferenceIdeal.Read.val_main_v3 (F := Ideal) x1)
    (h29 : U (Proc.devRef .tc main_v29) = Cert.ReferenceIdeal.Read.val_main_v29 (F := Ideal) x1 x2)
    (hprev : U (Proc.devRef .tc main_v49) = Cert.ReferenceIdeal.Read.val_main_v60 (F := Ideal) x0 x1 x2 x3 x4 x5) :
    StableHlo.after (hostOps1 (F := Ideal)) U (Proc.devRef .tc main_v62) = Cert.ReferenceIdeal.Read.val_main_v99 (F := Ideal) x0 x1 x2 x3 x4 x5 := by
  after_results_simp
  rw [h1, h3, h29, hprev]
  rfl

set_option maxHeartbeats 4000000 in
/-- Layer 2's bias, laid out as a row. -/
theorem mid2_bl (U : Valuation τ sig (Elt Ideal)) :
    StableHlo.after (hostOps1 (F := Ideal)) U (Proc.devRef .tc main_v63) = shapeCast S1x64 (U (Proc.devRef .tc main_arg7)) shapeCasts_S64_S1x64 := by
  after_results_simp
  rfl

set_option maxHeartbeats 4000000 in
theorem mid2_keep_main_v34 (U : Valuation τ sig (Elt Ideal)) :
    StableHlo.after (hostOps1 (F := Ideal)) U (Proc.devRef .tc main_v34) = U (Proc.devRef .tc main_v34) := by
  after_results_simp

set_option maxHeartbeats 4000000 in
theorem mid2_keep_main_v49 (U : Valuation τ sig (Elt Ideal)) :
    StableHlo.after (hostOps1 (F := Ideal)) U (Proc.devRef .tc main_v49) = U (Proc.devRef .tc main_v49) := by
  after_results_simp

set_option maxHeartbeats 4000000 in
theorem mid2_keep_main_arg6 (U : Valuation τ sig (Elt Ideal)) :
    StableHlo.after (hostOps1 (F := Ideal)) U (Proc.devRef .tc main_arg6) = U (Proc.devRef .tc main_arg6) := by
  after_results_simp

set_option maxHeartbeats 4000000 in
theorem mid2_keep_main_arg8 (U : Valuation τ sig (Elt Ideal)) :
    StableHlo.after (hostOps1 (F := Ideal)) U (Proc.devRef .tc main_arg8) = U (Proc.devRef .tc main_arg8) := by
  after_results_simp

set_option maxHeartbeats 4000000 in
theorem mid2_keep_main_v29 (U : Valuation τ sig (Elt Ideal)) :
    StableHlo.after (hostOps1 (F := Ideal)) U (Proc.devRef .tc main_v29) = U (Proc.devRef .tc main_v29) := by
  after_results_simp

set_option maxHeartbeats 4000000 in
theorem mid2_keep_main_v1 (U : Valuation τ sig (Elt Ideal)) :
    StableHlo.after (hostOps1 (F := Ideal)) U (Proc.devRef .tc main_v1) = U (Proc.devRef .tc main_v1) := by
  after_results_simp

set_option maxHeartbeats 4000000 in
theorem mid2_keep_main_v3 (U : Valuation τ sig (Elt Ideal)) :
    StableHlo.after (hostOps1 (F := Ideal)) U (Proc.devRef .tc main_v3) = U (Proc.devRef .tc main_v3) := by
  after_results_simp

set_option maxHeartbeats 4000000 in
theorem mid2_keep_main_arg9 (U : Valuation τ sig (Elt Ideal)) :
    StableHlo.after (hostOps1 (F := Ideal)) U (Proc.devRef .tc main_arg9) = U (Proc.devRef .tc main_arg9) := by
  after_results_simp

set_option maxHeartbeats 4000000 in
theorem mid2_keep_main_arg10 (U : Valuation τ sig (Elt Ideal)) :
    StableHlo.after (hostOps1 (F := Ideal)) U (Proc.devRef .tc main_arg10) = U (Proc.devRef .tc main_arg10) := by
  after_results_simp

set_option maxHeartbeats 4000000 in
theorem mid2_keep_main_arg11 (U : Valuation τ sig (Elt Ideal)) :
    StableHlo.after (hostOps1 (F := Ideal)) U (Proc.devRef .tc main_arg11) = U (Proc.devRef .tc main_arg11) := by
  after_results_simp

end Cert.KernelIdeal.Bridge

end
-- ==== Proof.Host2.lean ====
/-
  The host operations between region 1 and region 2 of the kernel program: layer 3's aggregate and bias row.

  They gather the previous layer's output rows at the edges' source nodes, scale each by the edge's normalised weight and add
  them up at the target nodes — the reference's own operations for this layer, given that the edge quantities and the
  previous layer's output are the reference's. Nothing else that a later region reads is written.
-/
import proofs.«150917_j82136954568750_1_alg».proof.Proof.Gen.KernelIdeal.Launch
import proofs.«150917_j82136954568750_1_alg».proof.Proof.Gen.ReferenceIdeal.Read

set_option maxRecDepth 65536

noncomputable section

namespace Cert.KernelIdeal.Bridge

open Idealize.ShloMosaic Idealize.ShloMosaic.TcCoe Idealize.SL.Sem Idealize.ShloMosaic.StableHlo
open Cert.KernelIdeal Cert.KernelIdeal.Gen

set_option maxHeartbeats 4000000 in
/-- Layer 3's aggregate is the reference's, when the edge list, the edge weights and the previous layer's output are. -/
theorem mid3_agg (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S1000000, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (U : Valuation τ sig (Elt Ideal))
    (h1 : U (Proc.devRef .tc main_v1) = Cert.ReferenceIdeal.Read.val_main_v1 (F := Ideal) x1) (h3 : U (Proc.devRef .tc main_v3) = Cert.ReferenceIdeal.Read.val_main_v3 (F := Ideal) x1)
    (h29 : U (Proc.devRef .tc main_v29) = Cert.ReferenceIdeal.Read.val_main_v29 (F := Ideal) x1 x2)
    (hprev : U (Proc.devRef .tc main_v64) = Cert.ReferenceIdeal.Read.val_main_v117 (F := Ideal) x0 x1 x2 x3 x4 x5 x6 x7 x8) :
    StableHlo.after (hostOps2 (F := Ideal)) U (Proc.devRef .tc main_v77) = Cert.ReferenceIdeal.Read.val_main_v156 (F := Ideal) x0 x1 x2 x3 x4 x5 x6 x7 x8 := by
  after_results_simp
  rw [h1, h3, h29, hprev]
  rfl

set_option maxHeartbeats 4000000 in
/-- Layer 3's bias, laid out as a row. -/
theorem mid3_bl (U : Valuation τ sig (Elt Ideal)) :
    StableHlo.after (hostOps2 (F := Ideal)) U (Proc.devRef .tc main_v78) = shapeCast S1x64 (U (Proc.devRef .tc main_arg10)) shapeCasts_S64_S1x64 := by
  after_results_simp
  rfl

set_option maxHeartbeats 4000000 in
theorem mid3_keep_main_v34 (U : Valuation τ sig (Elt Ideal)) :
    StableHlo.after (hostOps2 (F := Ideal)) U (Proc.devRef .tc main_v34) = U (Proc.devRef .tc main_v34) := by
  after_results_simp

set_option maxHeartbeats 4000000 in
theorem mid3_keep_main_v64 (U : Valuation τ sig (Elt Ideal)) :
    StableHlo.after (hostOps2 (F := Ideal)) U (Proc.devRef .tc main_v64) = U (Proc.devRef .tc main_v64) := by
  after_results_simp

set_option maxHeartbeats 4000000 in
theorem mid3_keep_main_arg9 (U : Valuation τ sig (Elt Ideal)) :
    StableHlo.after (hostOps2 (F := Ideal)) U (Proc.devRef .tc main_arg9) = U (Proc.devRef .tc main_arg9) := by
  after_results_simp

set_option maxHeartbeats 4000000 in
theorem mid3_keep_main_arg11 (U : Valuation τ sig (Elt Ideal)) :
    StableHlo.after (hostOps2 (F := Ideal)) U (Proc.devRef .tc main_arg11) = U (Proc.devRef .tc main_arg11) := by
  after_results_simp

end Cert.KernelIdeal.Bridge

end
-- ==== Proof.RefTail.lean ====
/-
  The reference program's three layers, each from its aggregate on, are the layer function `GraphLayer.combine`.

  In each layer the reference divides the aggregate by max(count, 1) repeated along the features, multiplies by the
  transpose of Wl (a host matrix product: at the ideal values the plain sum over the contracted index), adds the bias
  repeated down the nodes, adds the layer's input times the transpose of Wr, and (first two layers) rectifies. Each
  operation is read at an index by its generated read lemma; what is left is to see that the composed index maps pick
  row r of the node arrays, row q of the weight matrices, entry r of the count and entry q of the bias.
-/
import proofs.«150917_j82136954568750_1_alg».proof.Proof.Gen.ReferenceIdeal.Read
import proofs.«150917_j82136954568750_1_alg».proof.Proof.Combine
import Idealize.ShloMosaic.Lib.ValueIdx

noncomputable section

open scoped BigOperators

namespace Cert.ReferenceIdeal.Bridge

open Idealize.ShloMosaic Idealize.ShloMosaic.ValueIdx Cert.ReferenceIdeal Cert.ReferenceIdeal.Gen Cert.ReferenceIdeal.Read

/-! ## Layer 1 -/

theorem lrow1 (r : Fin 100000) (q k : Fin 64) : lidx_main_v53 (ix2 r q) k = ix2 r k :=
  funext fun a => by match a with | ⟨0, _⟩ => rfl | ⟨1, _⟩ => rfl
theorem lrowR1 (r : Fin 100000) (q k : Fin 64) : lidx_main_v58 (ix2 r q) k = ix2 r k :=
  funext fun a => by match a with | ⟨0, _⟩ => rfl | ⟨1, _⟩ => rfl
theorem wrow1 (r : Fin 100000) (q k : Fin 64) : idx_main_v52 (ridx_main_v53 (ix2 r q) k) = ix2 q k :=
  funext fun a => by match a with | ⟨0, _⟩ => rfl | ⟨1, _⟩ => rfl
theorem wrowR1 (r : Fin 100000) (q k : Fin 64) : idx_main_v57 (ridx_main_v58 (ix2 r q) k) = ix2 q k :=
  funext fun a => by match a with | ⟨0, _⟩ => rfl | ⟨1, _⟩ => rfl
theorem crow1 (r : Fin 100000) (k : Fin 64) : idx_main_v49 (idx_main_v50 (ix2 r k)) = ix1 r :=
  funext fun a => by match a with | ⟨0, _⟩ => rfl
theorem brow1 (r : Fin 100000) (q : Fin 64) : idx_main_v54 (idx_main_v55 (ix2 r q)) = ix1 q :=
  funext fun a => by match a with | ⟨0, _⟩ => rfl

/-- The reference's layer 1, from its aggregate on: the quotient by max(count, 1), the two products with the transposed
    weight matrices, the bias between them, the rectifier — at (r, q) the layer's cell. The count and the bias enter as a column
    and a row holding the reference's two vectors. -/
theorem tail1 (x0 : (⟨S100000x64, .f32⟩ : BufTy).Contents (Elt Ideal)) (x1 : (⟨S2x1000000, .i32⟩ : BufTy).Contents (Elt Ideal)) (x2 : (⟨S1000000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal))
    (cnt2 : (⟨2, ![100000, 1]⟩ : Shape).Idx → EReal) (bl2 : (⟨2, ![1, 64]⟩ : Shape).Idx → EReal)
    (hcnt : ∀ r : Fin 100000, cnt2 (ix2 r (0 : Fin 1)) = val_main_v46 (F := Ideal) x1 (ix1 r))
    (hbl : ∀ q : Fin 64, bl2 (ix2 (0 : Fin 1) q) = x4 (ix1 q)) :
    val_main_v60 (F := Ideal) x0 x1 x2 x3 x4 x5 = GraphLayer.combine true (val_main_v42 (F := Ideal) x0 x1 x2) cnt2 x0 x3 bl2 x5 := by
  funext i
  obtain ⟨r, q, rfl⟩ : ∃ (r : Fin 100000) (q : Fin 64), i = ix2 r q := ⟨i 0, i 1, eq_ix2 i⟩
  rw [GraphLayer.combine_apply]
  unfold GraphLayer.cell
  rw [val_main_v60_apply, val_main_call2_v0_apply, val_main_call2_cst_apply]
  rw [val_main_v59_apply, val_main_v56_apply, val_main_v58_apply, val_main_v53_apply, val_main_v55_apply, val_main_v54_apply]
  simp only [val_main_v51_apply, val_main_v52_apply, val_main_v57_apply, val_main_v50_apply, val_main_v49_apply, val_main_v48_apply,
    val_main_v47_apply, val_main_cst_12_apply, lrow1, lrowR1, wrow1, wrowR1, crow1, brow1, ← hcnt, ← hbl]
  rfl

/-! ## Layer 2 -/

theorem lrow2 (r : Fin 100000) (q k : Fin 64) : lidx_main_v110 (ix2 r q) k = ix2 r k :=
  funext fun a => by match a with | ⟨0, _⟩ => rfl | ⟨1, _⟩ => rfl
theorem lrowR2 (r : Fin 100000) (q k : Fin 64) : lidx_main_v115 (ix2 r q) k = ix2 r k :=
  funext fun a => by match a with | ⟨0, _⟩ => rfl | ⟨1, _⟩ => rfl
theorem wrow2 (r : Fin 100000) (q k : Fin 64) : idx_main_v109 (ridx_main_v110 (ix2 r q) k) = ix2 q k :=
  funext fun a => by match a with | ⟨0, _⟩ => rfl | ⟨1, _⟩ => rfl
theorem wrowR2 (r : Fin 100000) (q k : Fin 64) : idx_main_v114 (ridx_main_v115 (ix2 r q) k) = ix2 q k :=
  funext fun a => by match a with | ⟨0, _⟩ => rfl | ⟨1, _⟩ => rfl
theorem crow2 (r : Fin 100000) (k : Fin 64) : idx_main_v106 (idx_main_v107 (ix2 r k)) = ix1 r :=
  funext fun a => by match a with | ⟨0, _⟩ => rfl
theorem brow2 (r : Fin 100000) (q : Fin 64) : idx_main_v111 (idx_main_v112 (ix2 r q)) = ix1 q :=
  funext fun a => by match a with | ⟨0, _⟩ => rfl

/-- The reference's layer 2, from its aggregate on: the quotient by max(count, 1), the two products with the transposed
    weight matrices, the bias between them, the rectifier — at (r, q) the layer's cell. The count and the bias enter as a column
    and a row holding the reference's two vectors. -/
theorem tail2 (x0 : (⟨S100000x64, .f32⟩ : BufTy).Contents (Elt Ideal)) (x1 : (⟨S2x1000000, .i32⟩ : BufTy).Contents (Elt Ideal)) (x2 : (⟨S1000000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal))
    (cnt2 : (⟨2, ![100000, 1]⟩ : Shape).Idx → EReal) (bl2 : (⟨2, ![1, 64]⟩ : Shape).Idx → EReal)
    (hcnt : ∀ r : Fin 100000, cnt2 (ix2 r (0 : Fin 1)) = val_main_v103 (F := Ideal) x1 (ix1 r))
    (hbl : ∀ q : Fin 64, bl2 (ix2 (0 : Fin 1) q) = x7 (ix1 q)) :
    val_main_v117 (F := Ideal) x0 x1 x2 x3 x4 x5 x6 x7 x8 = GraphLayer.combine true (val_main_v99 (F := Ideal) x0 x1 x2 x3 x4 x5) cnt2 (val_main_v60 (F := Ideal) x0 x1 x2 x3 x4 x5) x6 bl2 x8 := by
  funext i
  obtain ⟨r, q, rfl⟩ : ∃ (r : Fin 100000) (q : Fin 64), i = ix2 r q := ⟨i 0, i 1, eq_ix2 i⟩
  rw [GraphLayer.combine_apply]
  unfold GraphLayer.cell
  rw [val_main_v117_apply, val_main_call5_v0_apply, val_main_call5_cst_apply]
  rw [val_main_v116_apply, val_main_v113_apply, val_main_v115_apply, val_main_v110_apply, val_main_v112_apply, val_main_v111_apply]
  simp only [val_main_v108_apply, val_main_v109_apply, val_main_v114_apply, val_main_v107_apply, val_main_v106_apply, val_main_v105_apply,
    val_main_v104_apply, val_main_cst_27_apply, lrow2, lrowR2, wrow2, wrowR2, crow2, brow2, ← hcnt, ← hbl]
  rfl

/-! ## Layer 3 -/

theorem lrow3 (r : Fin 100000) (q k : Fin 64) : lidx_main_v167 (ix2 r q) k = ix2 r k :=
  funext fun a => by match a with | ⟨0, _⟩ => rfl | ⟨1, _⟩ => rfl
theorem lrowR3 (r : Fin 100000) (q k : Fin 64) : lidx_main_v172 (ix2 r q) k = ix2 r k :=
  funext fun a => by match a with | ⟨0, _⟩ => rfl | ⟨1, _⟩ => rfl
theorem wrow3 (r : Fin 100000) (q k : Fin 64) : idx_main_v166 (ridx_main_v167 (ix2 r q) k) = ix2 q k :=
  funext fun a => by match a with | ⟨0, _⟩ => rfl | ⟨1, _⟩ => rfl
theorem wrowR3 (r : Fin 100000) (q k : Fin 64) : idx_main_v171 (ridx_main_v172 (ix2 r q) k) = ix2 q k :=
  funext fun a => by match a with | ⟨0, _⟩ => rfl | ⟨1, _⟩ => rfl
theorem crow3 (r : Fin 100000) (k : Fin 64) : idx_main_v163 (idx_main_v164 (ix2 r k)) = ix1 r :=
  funext fun a => by match a with | ⟨0, _⟩ => rfl
theorem brow3 (r : Fin 100000) (q : Fin 64) : idx_main_v168 (idx_main_v169 (ix2 r q)) = ix1 q :=
  funext fun a => by match a with | ⟨0, _⟩ => rfl

/-- The reference's layer 3, from its aggregate on: the quotient by max(count, 1), the two products with the transposed
    weight matrices, the bias between them — at (r, q) the layer's cell. The count and the bias enter as a column
    and a row holding the reference's two vectors. -/
theorem tail3 (x0 : (⟨S100000x64, .f32⟩ : BufTy).Contents (Elt Ideal)) (x1 : (⟨S2x1000000, .i32⟩ : BufTy).Contents (Elt Ideal)) (x2 : (⟨S1000000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal))
    (cnt2 : (⟨2, ![100000, 1]⟩ : Shape).Idx → EReal) (bl2 : (⟨2, ![1, 64]⟩ : Shape).Idx → EReal)
    (hcnt : ∀ r : Fin 100000, cnt2 (ix2 r (0 : Fin 1)) = val_main_v160 (F := Ideal) x1 (ix1 r))
    (hbl : ∀ q : Fin 64, bl2 (ix2 (0 : Fin 1) q) = x10 (ix1 q)) :
    val_main_v173 (F := Ideal) x0 x1 x2 x3 x4 x5 x6 x7 x8 x9 x10 x11 = GraphLayer.combine false (val_main_v156 (F := Ideal) x0 x1 x2 x3 x4 x5 x6 x7 x8) cnt2 (val_main_v117 (F := Ideal) x0 x1 x2 x3 x4 x5 x6 x7 x8) x9 bl2 x11 := by
  funext i
  obtain ⟨r, q, rfl⟩ : ∃ (r : Fin 100000) (q : Fin 64), i = ix2 r q := ⟨i 0, i 1, eq_ix2 i⟩
  rw [GraphLayer.combine_apply]
  unfold GraphLayer.cell
  rw [val_main_v173_apply, val_main_v170_apply, val_main_v172_apply, val_main_v167_apply, val_main_v169_apply, val_main_v168_apply]
  simp only [val_main_v165_apply, val_main_v166_apply, val_main_v171_apply, val_main_v164_apply, val_main_v163_apply, val_main_v162_apply,
    val_main_v161_apply, val_main_cst_42_apply, lrow3, lrowR3, wrow3, wrowR3, crow3, brow3, ← hcnt, ← hbl]
  rfl

end Cert.ReferenceIdeal.Bridge

end
-- ==== Proof.Value.lean ====
/-
  The kernel program's result, boundary by boundary.

  At the first region's entry the host has computed the reference's graph quantities and first aggregate; the region turns
  them into the first layer's output, which is the reference's (the layer function on both sides). Between regions the host
  computes the next aggregate from that output, with the same edge quantities, and nothing a later region reads is
  disturbed: the edge list, the edge weights, the count column and the arguments pass every region (as inputs or untouched)
  and every stretch (never written). Three times over, the third region's output array is the reference's result.
-/
import proofs.«150917_j82136954568750_1_alg».proof.Proof.Gen.KernelIdeal.Frame
import proofs.«150917_j82136954568750_1_alg».proof.Proof.Gen.ReferenceIdeal.Read
import proofs.«150917_j82136954568750_1_alg».proof.Proof.Region0
import proofs.«150917_j82136954568750_1_alg».proof.Proof.Region1
import proofs.«150917_j82136954568750_1_alg».proof.Proof.Region2
import proofs.«150917_j82136954568750_1_alg».proof.Proof.Pre0
import proofs.«150917_j82136954568750_1_alg».proof.Proof.Pre1
import proofs.«150917_j82136954568750_1_alg».proof.Proof.Pre2
import proofs.«150917_j82136954568750_1_alg».proof.Proof.Pre3
import proofs.«150917_j82136954568750_1_alg».proof.Proof.Pre4
import proofs.«150917_j82136954568750_1_alg».proof.Proof.Host1
import proofs.«150917_j82136954568750_1_alg».proof.Proof.Host2
import proofs.«150917_j82136954568750_1_alg».proof.Proof.RefTail
import Idealize.ShloMosaic.Lib.ValueLayout

set_option maxRecDepth 65536

noncomputable section

namespace Cert.KernelIdeal.Bridge

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The count column holds the count vector. -/
theorem cnt_column (v : (⟨1, ![100000]⟩ : Shape).Idx → EReal) (r : Fin 100000) :
    shapeCast S100000x1 v shapeCasts_S100000_S100000x1 (ix2 r (0 : Fin 1)) = v (ix1 r) :=
  GraphLayer.column_apply v shapeCasts_S100000_S100000x1 r 0
/-- A bias row holds the bias vector. -/
theorem bias_row (v : (⟨1, ![64]⟩ : Shape).Idx → EReal) (q : Fin 64) :
    shapeCast S1x64 v shapeCasts_S64_S1x64 (ix2 (0 : Fin 1) q) = v (ix1 q) :=
  shapeCast_a_1a_apply v shapeCasts_S64_S1x64 0 q

/-! ## Through the host operations before the first region, stretch by stretch -/
theorem at1_main_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  exact p0_v1 (W0 m ρ c)
theorem at1_main_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  exact p0_v3 (W0 m ρ c)
theorem at1_main_v6 : W1 m ρ c (Proc.devRef .tc main_v6) = Cert.ReferenceIdeal.Read.val_main_v6 (F := Ideal) (m ((c : Thread nD τ).loc main_arg1)) (m ((c : Thread nD τ).loc main_arg2)) := by
  show StableHlo.after hostOps0 (W0 m ρ c) (Proc.devRef .tc main_v6) = _
  exact p0_v6 (W0 m ρ c)
theorem at1_main_v8 : W1 m ρ c (Proc.devRef .tc main_v8) = Cert.ReferenceIdeal.Read.val_main_v8 (F := Ideal) (m ((c : Thread nD τ).loc main_arg1)) (m ((c : Thread nD τ).loc main_arg2)) := by
  show StableHlo.after hostOps0 (W0 m ρ c) (Proc.devRef .tc main_v8) = _
  exact p0_v8 (W0 m ρ c)
theorem at1_main_v10 : W1 m ρ c (Proc.devRef .tc main_v10) = Cert.ReferenceIdeal.Read.val_main_v10 (F := Ideal) (m ((c : Thread nD τ).loc main_arg1)) (m ((c : Thread nD τ).loc main_arg2)) := by
  show StableHlo.after hostOps0 (W0 m ρ c) (Proc.devRef .tc main_v10) = _
  exact p0_v10 (W0 m ρ c)
theorem at1_main_cst_2 : W1 m ρ c (Proc.devRef .tc main_cst_2) = Cert.ReferenceIdeal.Read.val_main_cst_2 (F := Ideal) := by
  show StableHlo.after hostOps0 (W0 m ρ c) (Proc.devRef .tc main_cst_2) = _
  exact p0_cst2 (W0 m ρ c)
theorem at1_main_arg0 : W1 m ρ c (Proc.devRef .tc main_arg0) = (m ((c : Thread nD τ).loc main_arg0)) := by
  show StableHlo.after hostOps0 (W0 m ρ c) (Proc.devRef .tc main_arg0) = _
  exact p0_keep_main_arg0 (W0 m ρ c)
theorem at1_main_arg2 : W1 m ρ c (Proc.devRef .tc main_arg2) = (m ((c : Thread nD τ).loc main_arg2)) := by
  show StableHlo.after hostOps0 (W0 m ρ c) (Proc.devRef .tc main_arg2) = _
  exact p0_keep_main_arg2 (W0 m ρ c)
theorem at1_main_arg3 : W1 m ρ c (Proc.devRef .tc main_arg3) = (m ((c : Thread nD τ).loc main_arg3)) := by
  show StableHlo.after hostOps0 (W0 m ρ c) (Proc.devRef .tc main_arg3) = _
  exact p0_keep_main_arg3 (W0 m ρ c)
theorem at1_main_arg4 : W1 m ρ c (Proc.devRef .tc main_arg4) = (m ((c : Thread nD τ).loc main_arg4)) := by
  show StableHlo.after hostOps0 (W0 m ρ c) (Proc.devRef .tc main_arg4) = _
  exact p0_keep_main_arg4 (W0 m ρ c)
theorem at1_main_arg5 : W1 m ρ c (Proc.devRef .tc main_arg5) = (m ((c : Thread nD τ).loc main_arg5)) := by
  show StableHlo.after hostOps0 (W0 m ρ c) (Proc.devRef .tc main_arg5) = _
  exact p0_keep_main_arg5 (W0 m ρ c)
theorem at1_main_arg6 : W1 m ρ c (Proc.devRef .tc main_arg6) = (m ((c : Thread nD τ).loc main_arg6)) := by
  show StableHlo.after hostOps0 (W0 m ρ c) (Proc.devRef .tc main_arg6) = _
  exact p0_keep_main_arg6 (W0 m ρ c)
theorem at1_main_arg7 : W1 m ρ c (Proc.devRef .tc main_arg7) = (m ((c : Thread nD τ).loc main_arg7)) := by
  show StableHlo.after hostOps0 (W0 m ρ c) (Proc.devRef .tc main_arg7) = _
  exact p0_keep_main_arg7 (W0 m ρ c)
theorem at1_main_arg8 : W1 m ρ c (Proc.devRef .tc main_arg8) = (m ((c : Thread nD τ).loc main_arg8)) := by
  show StableHlo.after hostOps0 (W0 m ρ c) (Proc.devRef .tc main_arg8) = _
  exact p0_keep_main_arg8 (W0 m ρ c)
theorem at1_main_arg9 : W1 m ρ c (Proc.devRef .tc main_arg9) = (m ((c : Thread nD τ).loc main_arg9)) := by
  show StableHlo.after hostOps0 (W0 m ρ c) (Proc.devRef .tc main_arg9) = _
  exact p0_keep_main_arg9 (W0 m ρ c)
theorem at1_main_arg10 : W1 m ρ c (Proc.devRef .tc main_arg10) = (m ((c : Thread nD τ).loc main_arg10)) := by
  show StableHlo.after hostOps0 (W0 m ρ c) (Proc.devRef .tc main_arg10) = _
  exact p0_keep_main_arg10 (W0 m ρ c)
theorem at1_main_arg11 : W1 m ρ c (Proc.devRef .tc main_arg11) = (m ((c : Thread nD τ).loc main_arg11)) := by
  show StableHlo.after hostOps0 (W0 m ρ c) (Proc.devRef .tc main_arg11) = _
  exact p0_keep_main_arg11 (W0 m ρ c)
theorem at2_main_v11 : W2 m ρ c (Proc.devRef .tc main_v11) = Cert.ReferenceIdeal.Read.val_main_v11 (F := Ideal) (m ((c : Thread nD τ).loc main_arg1)) (m ((c : Thread nD τ).loc main_arg2)) :=
  p1_v11 (m ((c : Thread nD τ).loc main_arg1)) (m ((c : Thread nD τ).loc main_arg2)) (W1 m ρ c) (at1_main_v10 m ρ c) (at1_main_v6 m ρ c) (at1_main_cst_2 m ρ c)
theorem at2_main_v1 : W2 m ρ c (Proc.devRef .tc main_v1) = Cert.ReferenceIdeal.Read.val_main_v1 (F := Ideal) (m ((c : Thread nD τ).loc main_arg1)) := (p1_keep_main_v1 (W1 m ρ c)).trans (at1_main_v1 m ρ c)
theorem at2_main_v3 : W2 m ρ c (Proc.devRef .tc main_v3) = Cert.ReferenceIdeal.Read.val_main_v3 (F := Ideal) (m ((c : Thread nD τ).loc main_arg1)) := (p1_keep_main_v3 (W1 m ρ c)).trans (at1_main_v3 m ρ c)
theorem at2_main_v8 : W2 m ρ c (Proc.devRef .tc main_v8) = Cert.ReferenceIdeal.Read.val_main_v8 (F := Ideal) (m ((c : Thread nD τ).loc main_arg1)) (m ((c : Thread nD τ).loc main_arg2)) := (p1_keep_main_v8 (W1 m ρ c)).trans (at1_main_v8 m ρ c)
theorem at2_main_arg0 : W2 m ρ c (Proc.devRef .tc main_arg0) = (m ((c : Thread nD τ).loc main_arg0)) := (p1_keep_main_arg0 (W1 m ρ c)).trans (at1_main_arg0 m ρ c)
theorem at2_main_arg2 : W2 m ρ c (Proc.devRef .tc main_arg2) = (m ((c : Thread nD τ).loc main_arg2)) := (p1_keep_main_arg2 (W1 m ρ c)).trans (at1_main_arg2 m ρ c)
theorem at2_main_arg3 : W2 m ρ c (Proc.devRef .tc main_arg3) = (m ((c : Thread nD τ).loc main_arg3)) := (p1_keep_main_arg3 (W1 m ρ c)).trans (at1_main_arg3 m ρ c)
theorem at2_main_arg4 : W2 m ρ c (Proc.devRef .tc main_arg4) = (m ((c : Thread nD τ).loc main_arg4)) := (p1_keep_main_arg4 (W1 m ρ c)).trans (at1_main_arg4 m ρ c)
theorem at2_main_arg5 : W2 m ρ c (Proc.devRef .tc main_arg5) = (m ((c : Thread nD τ).loc main_arg5)) := (p1_keep_main_arg5 (W1 m ρ c)).trans (at1_main_arg5 m ρ c)
theorem at2_main_arg6 : W2 m ρ c (Proc.devRef .tc main_arg6) = (m ((c : Thread nD τ).loc main_arg6)) := (p1_keep_main_arg6 (W1 m ρ c)).trans (at1_main_arg6 m ρ c)
theorem at2_main_arg7 : W2 m ρ c (Proc.devRef .tc main_arg7) = (m ((c : Thread nD τ).loc main_arg7)) := (p1_keep_main_arg7 (W1 m ρ c)).trans (at1_main_arg7 m ρ c)
theorem at2_main_arg8 : W2 m ρ c (Proc.devRef .tc main_arg8) = (m ((c : Thread nD τ).loc main_arg8)) := (p1_keep_main_arg8 (W1 m ρ c)).trans (at1_main_arg8 m ρ c)
theorem at2_main_arg9 : W2 m ρ c (Proc.devRef .tc main_arg9) = (m ((c : Thread nD τ).loc main_arg9)) := (p1_keep_main_arg9 (W1 m ρ c)).trans (at1_main_arg9 m ρ c)
theorem at2_main_arg10 : W2 m ρ c (Proc.devRef .tc main_arg10) = (m ((c : Thread nD τ).loc main_arg10)) := (p1_keep_main_arg10 (W1 m ρ c)).trans (at1_main_arg10 m ρ c)
theorem at2_main_arg11 : W2 m ρ c (Proc.devRef .tc main_arg11) = (m ((c : Thread nD τ).loc main_arg11)) := (p1_keep_main_arg11 (W1 m ρ c)).trans (at1_main_arg11 m ρ c)
theorem at3_main_v12 : W3 m ρ c (Proc.devRef .tc main_v12) = Cert.ReferenceIdeal.Read.val_main_v12 (F := Ideal) (m ((c : Thread nD τ).loc main_arg1)) (m ((c : Thread nD τ).loc main_arg2)) := p2_v12 (m ((c : Thread nD τ).loc main_arg1)) (m ((c : Thread nD τ).loc main_arg2)) (W2 m ρ c) (at2_main_v11 m ρ c)
theorem at3_main_cst_3 : W3 m ρ c (Proc.devRef .tc main_cst_3) = Cert.ReferenceIdeal.Read.val_main_cst_3 (F := Ideal) := p2_cst3 (W2 m ρ c)
theorem at3_main_v1 : W3 m ρ c (Proc.devRef .tc main_v1) = Cert.ReferenceIdeal.Read.val_main_v1 (F := Ideal) (m ((c : Thread nD τ).loc main_arg1)) := (p2_keep_main_v1 (W2 m ρ c)).trans (at2_main_v1 m ρ c)
theorem at3_main_v3 : W3 m ρ c (Proc.devRef .tc main_v3) = Cert.ReferenceIdeal.Read.val_main_v3 (F := Ideal) (m ((c : Thread nD τ).loc main_arg1)) := (p2_keep_main_v3 (W2 m ρ c)).trans (at2_main_v3 m ρ c)
theorem at3_main_v8 : W3 m ρ c (Proc.devRef .tc main_v8) = Cert.ReferenceIdeal.Read.val_main_v8 (F := Ideal) (m ((c : Thread nD τ).loc main_arg1)) (m ((c : Thread nD τ).loc main_arg2)) := (p2_keep_main_v8 (W2 m ρ c)).trans (at2_main_v8 m ρ c)
theorem at3_main_arg0 : W3 m ρ c (Proc.devRef .tc main_arg0) = (m ((c : Thread nD τ).loc main_arg0)) := (p2_keep_main_arg0 (W2 m ρ c)).trans (at2_main_arg0 m ρ c)
theorem at3_main_arg2 : W3 m ρ c (Proc.devRef .tc main_arg2) = (m ((c : Thread nD τ).loc main_arg2)) := (p2_keep_main_arg2 (W2 m ρ c)).trans (at2_main_arg2 m ρ c)
theorem at3_main_arg3 : W3 m ρ c (Proc.devRef .tc main_arg3) = (m ((c : Thread nD τ).loc main_arg3)) := (p2_keep_main_arg3 (W2 m ρ c)).trans (at2_main_arg3 m ρ c)
theorem at3_main_arg4 : W3 m ρ c (Proc.devRef .tc main_arg4) = (m ((c : Thread nD τ).loc main_arg4)) := (p2_keep_main_arg4 (W2 m ρ c)).trans (at2_main_arg4 m ρ c)
theorem at3_main_arg5 : W3 m ρ c (Proc.devRef .tc main_arg5) = (m ((c : Thread nD τ).loc main_arg5)) := (p2_keep_main_arg5 (W2 m ρ c)).trans (at2_main_arg5 m ρ c)
theorem at3_main_arg6 : W3 m ρ c (Proc.devRef .tc main_arg6) = (m ((c : Thread nD τ).loc main_arg6)) := (p2_keep_main_arg6 (W2 m ρ c)).trans (at2_main_arg6 m ρ c)
theorem at3_main_arg7 : W3 m ρ c (Proc.devRef .tc main_arg7) = (m ((c : Thread nD τ).loc main_arg7)) := (p2_keep_main_arg7 (W2 m ρ c)).trans (at2_main_arg7 m ρ c)
theorem at3_main_arg8 : W3 m ρ c (Proc.devRef .tc main_arg8) = (m ((c : Thread nD τ).loc main_arg8)) := (p2_keep_main_arg8 (W2 m ρ c)).trans (at2_main_arg8 m ρ c)
theorem at3_main_arg9 : W3 m ρ c (Proc.devRef .tc main_arg9) = (m ((c : Thread nD τ).loc main_arg9)) := (p2_keep_main_arg9 (W2 m ρ c)).trans (at2_main_arg9 m ρ c)
theorem at3_main_arg10 : W3 m ρ c (Proc.devRef .tc main_arg10) = (m ((c : Thread nD τ).loc main_arg10)) := (p2_keep_main_arg10 (W2 m ρ c)).trans (at2_main_arg10 m ρ c)
theorem at3_main_arg11 : W3 m ρ c (Proc.devRef .tc main_arg11) = (m ((c : Thread nD τ).loc main_arg11)) := (p2_keep_main_arg11 (W2 m ρ c)).trans (at2_main_arg11 m ρ c)
theorem at4_main_v13 : W4 m ρ c (Proc.devRef .tc main_v13) = Cert.ReferenceIdeal.Read.val_main_v13 (F := Ideal) (m ((c : Thread nD τ).loc main_arg1)) (m ((c : Thread nD τ).loc main_arg2)) :=
  p3_v13 (m ((c : Thread nD τ).loc main_arg1)) (m ((c : Thread nD τ).loc main_arg2)) (W3 m ρ c) (at3_main_v8 m ρ c) (at3_main_v12 m ρ c) (at3_main_cst_3 m ρ c)
theorem at4_main_v1 : W4 m ρ c (Proc.devRef .tc main_v1) = Cert.ReferenceIdeal.Read.val_main_v1 (F := Ideal) (m ((c : Thread nD τ).loc main_arg1)) := (p3_keep_main_v1 (W3 m ρ c)).trans (at3_main_v1 m ρ c)
theorem at4_main_v3 : W4 m ρ c (Proc.devRef .tc main_v3) = Cert.ReferenceIdeal.Read.val_main_v3 (F := Ideal) (m ((c : Thread nD τ).loc main_arg1)) := (p3_keep_main_v3 (W3 m ρ c)).trans (at3_main_v3 m ρ c)
theorem at4_main_arg0 : W4 m ρ c (Proc.devRef .tc main_arg0) = (m ((c : Thread nD τ).loc main_arg0)) := (p3_keep_main_arg0 (W3 m ρ c)).trans (at3_main_arg0 m ρ c)
theorem at4_main_arg2 : W4 m ρ c (Proc.devRef .tc main_arg2) = (m ((c : Thread nD τ).loc main_arg2)) := (p3_keep_main_arg2 (W3 m ρ c)).trans (at3_main_arg2 m ρ c)
theorem at4_main_arg3 : W4 m ρ c (Proc.devRef .tc main_arg3) = (m ((c : Thread nD τ).loc main_arg3)) := (p3_keep_main_arg3 (W3 m ρ c)).trans (at3_main_arg3 m ρ c)
theorem at4_main_arg4 : W4 m ρ c (Proc.devRef .tc main_arg4) = (m ((c : Thread nD τ).loc main_arg4)) := (p3_keep_main_arg4 (W3 m ρ c)).trans (at3_main_arg4 m ρ c)
theorem at4_main_arg5 : W4 m ρ c (Proc.devRef .tc main_arg5) = (m ((c : Thread nD τ).loc main_arg5)) := (p3_keep_main_arg5 (W3 m ρ c)).trans (at3_main_arg5 m ρ c)
theorem at4_main_arg6 : W4 m ρ c (Proc.devRef .tc main_arg6) = (m ((c : Thread nD τ).loc main_arg6)) := (p3_keep_main_arg6 (W3 m ρ c)).trans (at3_main_arg6 m ρ c)
theorem at4_main_arg7 : W4 m ρ c (Proc.devRef .tc main_arg7) = (m ((c : Thread nD τ).loc main_arg7)) := (p3_keep_main_arg7 (W3 m ρ c)).trans (at3_main_arg7 m ρ c)
theorem at4_main_arg8 : W4 m ρ c (Proc.devRef .tc main_arg8) = (m ((c : Thread nD τ).loc main_arg8)) := (p3_keep_main_arg8 (W3 m ρ c)).trans (at3_main_arg8 m ρ c)
theorem at4_main_arg9 : W4 m ρ c (Proc.devRef .tc main_arg9) = (m ((c : Thread nD τ).loc main_arg9)) := (p3_keep_main_arg9 (W3 m ρ c)).trans (at3_main_arg9 m ρ c)
theorem at4_main_arg10 : W4 m ρ c (Proc.devRef .tc main_arg10) = (m ((c : Thread nD τ).loc main_arg10)) := (p3_keep_main_arg10 (W3 m ρ c)).trans (at3_main_arg10 m ρ c)
theorem at4_main_arg11 : W4 m ρ c (Proc.devRef .tc main_arg11) = (m ((c : Thread nD τ).loc main_arg11)) := (p3_keep_main_arg11 (W3 m ρ c)).trans (at3_main_arg11 m ρ c)

/-! ## At the first region's entry -/
theorem at5_main_v29 : W5 m ρ c (Proc.devRef .tc main_v29) = Cert.ReferenceIdeal.Read.val_main_v29 (F := Ideal) (m ((c : Thread nD τ).loc main_arg1)) (m ((c : Thread nD τ).loc main_arg2)) :=
  p4_w (m ((c : Thread nD τ).loc main_arg1)) (m ((c : Thread nD τ).loc main_arg2)) (W4 m ρ c) (at4_main_v1 m ρ c) (at4_main_v3 m ρ c) (at4_main_v13 m ρ c) (at4_main_arg2 m ρ c)
theorem at5_main_v34 : W5 m ρ c (Proc.devRef .tc main_v34) = (shapeCast S100000x1 (Cert.ReferenceIdeal.Read.val_main_v46 (F := Ideal) (m ((c : Thread nD τ).loc main_arg1))) shapeCasts_S100000_S100000x1) := p4_cnt (m ((c : Thread nD τ).loc main_arg1)) (W4 m ρ c) (at4_main_v3 m ρ c)
theorem at5_agg : W5 m ρ c (Proc.devRef .tc main_v47) = Cert.ReferenceIdeal.Read.val_main_v42 (F := Ideal) (m ((c : Thread nD τ).loc main_arg0)) (m ((c : Thread nD τ).loc main_arg1)) (m ((c : Thread nD τ).loc main_arg2)) :=
  p4_agg (m ((c : Thread nD τ).loc main_arg0)) (m ((c : Thread nD τ).loc main_arg1)) (m ((c : Thread nD τ).loc main_arg2)) (W4 m ρ c) (at4_main_v1 m ρ c) (at4_main_v3 m ρ c) (at4_main_v13 m ρ c) (at4_main_arg0 m ρ c) (at4_main_arg2 m ρ c)
theorem at5_bl : W5 m ρ c (Proc.devRef .tc main_v48) = shapeCast S1x64 (m ((c : Thread nD τ).loc main_arg4)) shapeCasts_S64_S1x64 :=
  (p4_bl (W4 m ρ c)).trans (congrArg (fun v => shapeCast S1x64 v shapeCasts_S64_S1x64) (at4_main_arg4 m ρ c))
theorem at5_main_v1 : W5 m ρ c (Proc.devRef .tc main_v1) = Cert.ReferenceIdeal.Read.val_main_v1 (F := Ideal) (m ((c : Thread nD τ).loc main_arg1)) := (p4_keep_main_v1 (W4 m ρ c)).trans (at4_main_v1 m ρ c)
theorem at5_main_v3 : W5 m ρ c (Proc.devRef .tc main_v3) = Cert.ReferenceIdeal.Read.val_main_v3 (F := Ideal) (m ((c : Thread nD τ).loc main_arg1)) := (p4_keep_main_v3 (W4 m ρ c)).trans (at4_main_v3 m ρ c)
theorem at5_main_arg0 : W5 m ρ c (Proc.devRef .tc main_arg0) = (m ((c : Thread nD τ).loc main_arg0)) := (p4_keep_main_arg0 (W4 m ρ c)).trans (at4_main_arg0 m ρ c)
theorem at5_main_arg3 : W5 m ρ c (Proc.devRef .tc main_arg3) = (m ((c : Thread nD τ).loc main_arg3)) := (p4_keep_main_arg3 (W4 m ρ c)).trans (at4_main_arg3 m ρ c)
theorem at5_main_arg5 : W5 m ρ c (Proc.devRef .tc main_arg5) = (m ((c : Thread nD τ).loc main_arg5)) := (p4_keep_main_arg5 (W4 m ρ c)).trans (at4_main_arg5 m ρ c)
theorem at5_main_arg6 : W5 m ρ c (Proc.devRef .tc main_arg6) = (m ((c : Thread nD τ).loc main_arg6)) := (p4_keep_main_arg6 (W4 m ρ c)).trans (at4_main_arg6 m ρ c)
theorem at5_main_arg7 : W5 m ρ c (Proc.devRef .tc main_arg7) = (m ((c : Thread nD τ).loc main_arg7)) := (p4_keep_main_arg7 (W4 m ρ c)).trans (at4_main_arg7 m ρ c)
theorem at5_main_arg8 : W5 m ρ c (Proc.devRef .tc main_arg8) = (m ((c : Thread nD τ).loc main_arg8)) := (p4_keep_main_arg8 (W4 m ρ c)).trans (at4_main_arg8 m ρ c)
theorem at5_main_arg9 : W5 m ρ c (Proc.devRef .tc main_arg9) = (m ((c : Thread nD τ).loc main_arg9)) := (p4_keep_main_arg9 (W4 m ρ c)).trans (at4_main_arg9 m ρ c)
theorem at5_main_arg10 : W5 m ρ c (Proc.devRef .tc main_arg10) = (m ((c : Thread nD τ).loc main_arg10)) := (p4_keep_main_arg10 (W4 m ρ c)).trans (at4_main_arg10 m ρ c)
theorem at5_main_arg11 : W5 m ρ c (Proc.devRef .tc main_arg11) = (m ((c : Thread nD τ).loc main_arg11)) := (p4_keep_main_arg11 (W4 m ρ c)).trans (at4_main_arg11 m ρ c)

/-- The first region's output array is the reference's first layer. -/
theorem out1 : (dat0 (V5 m ρ) c).arrAt 6 cfg0.N = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (final0 (V5 m ρ) c).trans ?_
  show GraphLayer.combine true (W5 m ρ c (Proc.devRef .tc main_v47)) (W5 m ρ c (Proc.devRef .tc main_v34)) (W5 m ρ c (Proc.devRef .tc main_arg0)) (W5 m ρ c (Proc.devRef .tc main_arg3)) (W5 m ρ c (Proc.devRef .tc main_v48)) (W5 m ρ c (Proc.devRef .tc main_arg5)) = _
  rw [at5_agg, at5_main_v34, at5_main_arg0, at5_main_arg3, at5_bl, at5_main_arg5]
  exact (Cert.ReferenceIdeal.Bridge.tail1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ (fun r => cnt_column _ r) (fun q => bias_row _ q)).symm

/-! ## Past the first region -/
theorem at6_out : W6 m ρ c (Proc.devRef .tc main_v49) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W6_arr m ρ c 6).trans (out1 m ρ c)
theorem at6_main_v34 : W6 m ρ c (Proc.devRef .tc main_v34) = (shapeCast S100000x1 (Cert.ReferenceIdeal.Read.val_main_v46 (F := Ideal) (m ((c : Thread nD τ).loc main_arg1))) shapeCasts_S100000_S100000x1) :=
  ((W6_arr m ρ c 1).trans (((dat0 (V5 m ρ) c).arrAt_in 1 rfl _).trans (A_eq0 (V5 m ρ) c 1))).trans (at5_main_v34 m ρ c)
theorem at6_main_v1 : W6 m ρ c (Proc.devRef .tc main_v1) = Cert.ReferenceIdeal.Read.val_main_v1 (F := Ideal) (m ((c : Thread nD τ).loc main_arg1)) := (W6_of_ne m ρ c main_v1 (by decide)).trans (at5_main_v1 m ρ c)
theorem at6_main_v3 : W6 m ρ c (Proc.devRef .tc main_v3) = Cert.ReferenceIdeal.Read.val_main_v3 (F := Ideal) (m ((c : Thread nD τ).loc main_arg1)) := (W6_of_ne m ρ c main_v3 (by decide)).trans (at5_main_v3 m ρ c)
theorem at6_main_v29 : W6 m ρ c (Proc.devRef .tc main_v29) = Cert.ReferenceIdeal.Read.val_main_v29 (F := Ideal) (m ((c : Thread nD τ).loc main_arg1)) (m ((c : Thread nD τ).loc main_arg2)) := (W6_of_ne m ρ c main_v29 (by decide)).trans (at5_main_v29 m ρ c)
theorem at6_main_arg6 : W6 m ρ c (Proc.devRef .tc main_arg6) = (m ((c : Thread nD τ).loc main_arg6)) := (W6_of_ne m ρ c main_arg6 (by decide)).trans (at5_main_arg6 m ρ c)
theorem at6_main_arg7 : W6 m ρ c (Proc.devRef .tc main_arg7) = (m ((c : Thread nD τ).loc main_arg7)) := (W6_of_ne m ρ c main_arg7 (by decide)).trans (at5_main_arg7 m ρ c)
theorem at6_main_arg8 : W6 m ρ c (Proc.devRef .tc main_arg8) = (m ((c : Thread nD τ).loc main_arg8)) := (W6_of_ne m ρ c main_arg8 (by decide)).trans (at5_main_arg8 m ρ c)
theorem at6_main_arg9 : W6 m ρ c (Proc.devRef .tc main_arg9) = (m ((c : Thread nD τ).loc main_arg9)) := (W6_of_ne m ρ c main_arg9 (by decide)).trans (at5_main_arg9 m ρ c)
theorem at6_main_arg10 : W6 m ρ c (Proc.devRef .tc main_arg10) = (m ((c : Thread nD τ).loc main_arg10)) := (W6_of_ne m ρ c main_arg10 (by decide)).trans (at5_main_arg10 m ρ c)
theorem at6_main_arg11 : W6 m ρ c (Proc.devRef .tc main_arg11) = (m ((c : Thread nD τ).loc main_arg11)) := (W6_of_ne m ρ c main_arg11 (by decide)).trans (at5_main_arg11 m ρ c)

/-! ## At the second region's entry -/
theorem at7_agg : W7 m ρ c (Proc.devRef .tc main_v62) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  mid2_agg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (W6 m ρ c) (at6_main_v1 m ρ c) (at6_main_v3 m ρ c) (at6_main_v29 m ρ c) (at6_out m ρ c)
theorem at7_bl : W7 m ρ c (Proc.devRef .tc main_v63) = shapeCast S1x64 (m ((c : Thread nD τ).loc main_arg7)) shapeCasts_S64_S1x64 :=
  (mid2_bl (W6 m ρ c)).trans (congrArg (fun v => shapeCast S1x64 v shapeCasts_S64_S1x64) (at6_main_arg7 m ρ c))
theorem at7_prev : W7 m ρ c (Proc.devRef .tc main_v49) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (mid2_keep_main_v49 (W6 m ρ c)).trans (at6_out m ρ c)
theorem at7_main_v34 : W7 m ρ c (Proc.devRef .tc main_v34) = (shapeCast S100000x1 (Cert.ReferenceIdeal.Read.val_main_v46 (F := Ideal) (m ((c : Thread nD τ).loc main_arg1))) shapeCasts_S100000_S100000x1) := (mid2_keep_main_v34 (W6 m ρ c)).trans (at6_main_v34 m ρ c)
theorem at7_main_arg6 : W7 m ρ c (Proc.devRef .tc main_arg6) = (m ((c : Thread nD τ).loc main_arg6)) := (mid2_keep_main_arg6 (W6 m ρ c)).trans (at6_main_arg6 m ρ c)
theorem at7_main_arg8 : W7 m ρ c (Proc.devRef .tc main_arg8) = (m ((c : Thread nD τ).loc main_arg8)) := (mid2_keep_main_arg8 (W6 m ρ c)).trans (at6_main_arg8 m ρ c)
theorem at7_main_v29 : W7 m ρ c (Proc.devRef .tc main_v29) = Cert.ReferenceIdeal.Read.val_main_v29 (F := Ideal) (m ((c : Thread nD τ).loc main_arg1)) (m ((c : Thread nD τ).loc main_arg2)) := (mid2_keep_main_v29 (W6 m ρ c)).trans (at6_main_v29 m ρ c)
theorem at7_main_v1 : W7 m ρ c (Proc.devRef .tc main_v1) = Cert.ReferenceIdeal.Read.val_main_v1 (F := Ideal) (m ((c : Thread nD τ).loc main_arg1)) := (mid2_keep_main_v1 (W6 m ρ c)).trans (at6_main_v1 m ρ c)
theorem at7_main_v3 : W7 m ρ c (Proc.devRef .tc main_v3) = Cert.ReferenceIdeal.Read.val_main_v3 (F := Ideal) (m ((c : Thread nD τ).loc main_arg1)) := (mid2_keep_main_v3 (W6 m ρ c)).trans (at6_main_v3 m ρ c)
theorem at7_main_arg9 : W7 m ρ c (Proc.devRef .tc main_arg9) = (m ((c : Thread nD τ).loc main_arg9)) := (mid2_keep_main_arg9 (W6 m ρ c)).trans (at6_main_arg9 m ρ c)
theorem at7_main_arg10 : W7 m ρ c (Proc.devRef .tc main_arg10) = (m ((c : Thread nD τ).loc main_arg10)) := (mid2_keep_main_arg10 (W6 m ρ c)).trans (at6_main_arg10 m ρ c)
theorem at7_main_arg11 : W7 m ρ c (Proc.devRef .tc main_arg11) = (m ((c : Thread nD τ).loc main_arg11)) := (mid2_keep_main_arg11 (W6 m ρ c)).trans (at6_main_arg11 m ρ c)

/-- The second region's output array is the reference's second layer. -/
theorem out2 : (dat1 (V7 m ρ) c).arrAt 6 cfg1.N = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final1 (V7 m ρ) c).trans ?_
  show GraphLayer.combine true (W7 m ρ c (Proc.devRef .tc main_v62)) (W7 m ρ c (Proc.devRef .tc main_v34)) (W7 m ρ c (Proc.devRef .tc main_v49)) (W7 m ρ c (Proc.devRef .tc main_arg6)) (W7 m ρ c (Proc.devRef .tc main_v63)) (W7 m ρ c (Proc.devRef .tc main_arg8)) = _
  rw [at7_agg, at7_main_v34, at7_prev, at7_main_arg6, at7_bl, at7_main_arg8]
  exact (Cert.ReferenceIdeal.Bridge.tail2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ (fun r => cnt_column _ r) (fun q => bias_row _ q)).symm

/-! ## Past the second region -/
theorem at8_out : W8 m ρ c (Proc.devRef .tc main_v64) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W8_arr m ρ c 6).trans (out2 m ρ c)
theorem at8_main_v34 : W8 m ρ c (Proc.devRef .tc main_v34) = (shapeCast S100000x1 (Cert.ReferenceIdeal.Read.val_main_v46 (F := Ideal) (m ((c : Thread nD τ).loc main_arg1))) shapeCasts_S100000_S100000x1) :=
  ((W8_arr m ρ c 1).trans (((dat1 (V7 m ρ) c).arrAt_in 1 rfl _).trans (A_eq1 (V7 m ρ) c 1))).trans (at7_main_v34 m ρ c)
theorem at8_main_v1 : W8 m ρ c (Proc.devRef .tc main_v1) = Cert.ReferenceIdeal.Read.val_main_v1 (F := Ideal) (m ((c : Thread nD τ).loc main_arg1)) := (W8_of_ne m ρ c main_v1 (by decide)).trans (at7_main_v1 m ρ c)
theorem at8_main_v3 : W8 m ρ c (Proc.devRef .tc main_v3) = Cert.ReferenceIdeal.Read.val_main_v3 (F := Ideal) (m ((c : Thread nD τ).loc main_arg1)) := (W8_of_ne m ρ c main_v3 (by decide)).trans (at7_main_v3 m ρ c)
theorem at8_main_v29 : W8 m ρ c (Proc.devRef .tc main_v29) = Cert.ReferenceIdeal.Read.val_main_v29 (F := Ideal) (m ((c : Thread nD τ).loc main_arg1)) (m ((c : Thread nD τ).loc main_arg2)) := (W8_of_ne m ρ c main_v29 (by decide)).trans (at7_main_v29 m ρ c)
theorem at8_main_arg9 : W8 m ρ c (Proc.devRef .tc main_arg9) = (m ((c : Thread nD τ).loc main_arg9)) := (W8_of_ne m ρ c main_arg9 (by decide)).trans (at7_main_arg9 m ρ c)
theorem at8_main_arg10 : W8 m ρ c (Proc.devRef .tc main_arg10) = (m ((c : Thread nD τ).loc main_arg10)) := (W8_of_ne m ρ c main_arg10 (by decide)).trans (at7_main_arg10 m ρ c)
theorem at8_main_arg11 : W8 m ρ c (Proc.devRef .tc main_arg11) = (m ((c : Thread nD τ).loc main_arg11)) := (W8_of_ne m ρ c main_arg11 (by decide)).trans (at7_main_arg11 m ρ c)

/-! ## At the third region's entry -/
theorem at9_agg : W9 m ρ c (Proc.devRef .tc main_v77) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  mid3_agg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (W8 m ρ c) (at8_main_v1 m ρ c) (at8_main_v3 m ρ c) (at8_main_v29 m ρ c) (at8_out m ρ c)
theorem at9_bl : W9 m ρ c (Proc.devRef .tc main_v78) = shapeCast S1x64 (m ((c : Thread nD τ).loc main_arg10)) shapeCasts_S64_S1x64 :=
  (mid3_bl (W8 m ρ c)).trans (congrArg (fun v => shapeCast S1x64 v shapeCasts_S64_S1x64) (at8_main_arg10 m ρ c))
theorem at9_prev : W9 m ρ c (Proc.devRef .tc main_v64) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (mid3_keep_main_v64 (W8 m ρ c)).trans (at8_out m ρ c)
theorem at9_main_v34 : W9 m ρ c (Proc.devRef .tc main_v34) = (shapeCast S100000x1 (Cert.ReferenceIdeal.Read.val_main_v46 (F := Ideal) (m ((c : Thread nD τ).loc main_arg1))) shapeCasts_S100000_S100000x1) := (mid3_keep_main_v34 (W8 m ρ c)).trans (at8_main_v34 m ρ c)
theorem at9_main_arg9 : W9 m ρ c (Proc.devRef .tc main_arg9) = (m ((c : Thread nD τ).loc main_arg9)) := (mid3_keep_main_arg9 (W8 m ρ c)).trans (at8_main_arg9 m ρ c)
theorem at9_main_arg11 : W9 m ρ c (Proc.devRef .tc main_arg11) = (m ((c : Thread nD τ).loc main_arg11)) := (mid3_keep_main_arg11 (W8 m ρ c)).trans (at8_main_arg11 m ρ c)

/-- The third region's output array — the kernel program's result — is the reference's result. -/
theorem out3 : (dat2 (V9 m ρ) c).arrAt 6 cfg2.N = Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (final2 (V9 m ρ) c).trans ?_
  show GraphLayer.combine false (W9 m ρ c (Proc.devRef .tc main_v77)) (W9 m ρ c (Proc.devRef .tc main_v34)) (W9 m ρ c (Proc.devRef .tc main_v64)) (W9 m ρ c (Proc.devRef .tc main_arg9)) (W9 m ρ c (Proc.devRef .tc main_v78)) (W9 m ρ c (Proc.devRef .tc main_arg11)) = _
  rw [at9_agg, at9_main_v34, at9_prev, at9_main_arg9, at9_bl, at9_main_arg11]
  exact (Cert.ReferenceIdeal.Bridge.tail3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ (fun r => cnt_column _ r) (fun q => bias_row _ q)).symm

end Cert.KernelIdeal.Bridge

end
-- ==== Proof.lean ====
/-
  Three stacked graph-convolution layers over a graph of 100000 nodes and 1000000 edges: the kernel program against its
  reference, on the extended reals.

  Both programs compute, for every layer, with w the symmetrically normalised edge weights (w = dis[row] · weight · dis[col],
  dis = 1/sqrt(deg) where the weighted in-degree is positive and 0 elsewhere) and cnt the number of incoming edges of a node:
      agg[r, ·]  =  Σ over the edges e into r of  w[e] · h[row e, ·]
      out[r, q]  =  (Σ_k agg[r,k] / max(cnt r, 1) · Wl[q,k])  +  bl[q]  +  Σ_k h[r,k] · Wr[q,k]
  followed by a rectifier after the first two layers. The reference does all of it on the host, layer by layer, recomputing
  w and cnt each time. The kernel program computes w and cnt once, leaves the gather and the scatter-add of each layer on
  the host, and runs the second line in a kernel region over blocks of 10000 nodes, with its operands narrowed to bf16
  before the two matrix products — which is the identity on the extended reals.

  The two results are equal because they are the same function: the host operations of the kernel program are, one for
  one, the reference's (Proof/Host0a … Host2); a region's output array is the layer function `GraphLayer.combine` of the
  arrays it finds on entry (Proof/Payload, Proof/Region0 … Region2); the reference's operations after its aggregate are
  that function too (Proof/RefTail); and the contents of every buffer a later stage reads survive the stages in between
  (Proof/Value). No algebraic law beyond reading both sides as the same term is used, so the precondition (finite inputs)
  is never opened. The three frame claims are the generated frame certificates and the reference's generated run; the
  idealization rewrote nothing, so there is nothing to preserve.
-/
import proofs.«150917_j82136954568750_1_alg».proof.Defs
import proofs.«150917_j82136954568750_1_alg».proof.Proof.Gen.Kernel
import proofs.«150917_j82136954568750_1_alg».proof.Proof.Gen.Kernel.Frame
import proofs.«150917_j82136954568750_1_alg».proof.Proof.Gen.KernelIdeal
import proofs.«150917_j82136954568750_1_alg».proof.Proof.Gen.KernelIdeal.Frame
import proofs.«150917_j82136954568750_1_alg».proof.Proof.Gen.ReferenceIdeal
import proofs.«150917_j82136954568750_1_alg».proof.Proof.Gen.ReferenceIdeal.Run
import proofs.«150917_j82136954568750_1_alg».proof.Proof.Gen.ReferenceIdeal.Read
import proofs.«150917_j82136954568750_1_alg».proof.Proof.Gen.Pre_finite_inputs
import proofs.«150917_j82136954568750_1_alg».proof.Proof.KernelRun
import proofs.«150917_j82136954568750_1_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result term of the (agreeing) arguments: the kernel program because its third
    region's output array is that term, the reference by its own run. -/
theorem algebraic : Cert.algebraic_KernelIdeal_ReferenceIdeal := by
  intro m ρ m' ρ' _ hagree
  refine ⟨fun c => Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Bridge.out3 m ρ c), (h c).2⟩)
      (Cert.KernelIdeal.Bridge.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    show Cert.ReferenceIdeal.Value.res_main_v173 m' c = Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    rw [Cert.ReferenceIdeal.Read.val_main_v173_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
